-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S50000x384 : Shape := ⟨2, ![50000, 384]⟩
abbrev S2000000 : Shape := ⟨1, ![2000000]⟩
abbrev S500000 : Shape := ⟨1, ![500000]⟩
abbrev S3x64 : Shape := ⟨2, ![3, 64]⟩
abbrev S64 : Shape := ⟨1, ![64]⟩
abbrev S384x64 : Shape := ⟨2, ![384, 64]⟩
abbrev S64x64 : Shape := ⟨2, ![64, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S50000x384 : S_.BroadcastsInDim S50000x384 (![] : Fin 0 → Fin S50000x384.rank)
  reducesTo_S50000x384_S_d0_1 : S50000x384.ReducesTo [0, 1] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S384x64 : S_.BroadcastsInDim S384x64 (![] : Fin 0 → Fin S384x64.rank)
  reducesTo_S384x64_S_d0_1 : S384x64.ReducesTo [0, 1] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg25 : FVec F S1 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg22 : FVec F S128x128 .f32) (main_arg23 : FVec F S128 .f32) (main_arg24 : FVec F S128x1 .f32) (main_arg25 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S128x128 .f32 := Host.absf main_arg22
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg23
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg24
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S64x64 .f32) (main_arg19 : FVec F S64x64 .f32) (main_arg20 : FVec F S64 .f32) (main_arg21 : FVec F S64x64 .f32) (main_arg22 : FVec F S128x128 .f32) (main_arg23 : FVec F S128 .f32) (main_arg24 : FVec F S128x1 .f32) (main_arg25 : FVec F S1 .f32) (main_v63 : IVec S_ 1) (main_v67 : IVec S_ 1) : IVec S_ 1 :=
  let main_v68 : IVec S_ 1 := andi main_v63 main_v67
  let main_v69 : FVec F S64x64 .f32 := Host.absf main_arg18
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg19
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg20
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S64x64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S128x128 .f32) (main_arg23 : FVec F S128 .f32) (main_arg24 : FVec F S128x1 .f32) (main_arg25 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg16
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S128x128 .f32) (main_arg23 : FVec F S128 .f32) (main_arg24 : FVec F S128x1 .f32) (main_arg25 : FVec F S1 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg13
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S384x64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S128x128 .f32) (main_arg23 : FVec F S128 .f32) (main_arg24 : FVec F S128x1 .f32) (main_arg25 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S384x64 .f32 := Host.absf main_arg8
  let main_cst_6 : FVec F S_ .f32 := constant S_ .f32 0x7F800000#32
  let main_v20 : FVec F S384x64 .f32 := broadcastInDim S384x64 ![] bcast_S_S384x64 main_cst_6
  let main_v21 : IVec S384x64 1 := cmpf .olt main_v19 main_v20
  let main_c_7 : IVec S_ 1 := constantI S_ 1 1#1
  let main_v22 : IVec S_ 1 := (fun x v => Host.reduce IntOp.andi x v reducesTo_S384x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x3 .f32) (main_arg1 : FVec F S50000x384 .f32) (main_arg2 : IVec S2000000 32) (main_arg3 : IVec S2000000 32) (main_arg4 : IVec S500000 32) (main_arg5 : IVec S500000 32) (main_arg6 : FVec F S3x64 .f32) (main_arg7 : FVec F S64 .f32) (main_arg8 : FVec F S384x64 .f32) (main_arg9 : FVec F S64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64x64 .f32) (main_arg20 : FVec F S64 .f32) (main_arg21 : FVec F S64x64 .f32) (main_arg22 : FVec F S128x128 .f32) (main_arg23 : FVec F S128 .f32) (main_arg24 : FVec F S128x1 .f32) (main_arg25 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S50000x384 .f32 := Host.absf main_arg1
  let main_cst_0 : FVec F S_ .f32 := constant S_ .f32 0x7F800000#32
  let main_v5 : FVec F S50000x384 .f32 := broadcastInDim S50000x384 ![] bcast_S_S50000x384 main_cst_0
  let main_v6 : IVec S50000x384 1 := cmpf .olt main_v4 main_v5
  let main_c_1 : IVec S_ 1 := constantI S_ 1 1#1
  let main_v7 : IVec S_ 1 := (fun x v => Host.reduce IntOp.andi x v reducesTo_S50000x384_S_d0_1 h_S_) main_v6 main_c_1
  let main_v8 : IVec S_ 1 := andi main_v3 main_v7
  let main_v9 : FVec F S3x64 .f32 := Host.absf main_arg6
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x3 : Shape := ⟨2, ![100000, 3]⟩
abbrev S50000x384 : Shape := ⟨2, ![50000, 384]⟩
abbrev S2000000 : Shape := ⟨1, ![2000000]⟩
abbrev S500000 : Shape := ⟨1, ![500000]⟩
abbrev S3x64 : Shape := ⟨2, ![3, 64]⟩
abbrev S64 : Shape := ⟨1, ![64]⟩
abbrev S384x64 : Shape := ⟨2, ![384, 64]⟩
abbrev S64x64 : Shape := ⟨2, ![64, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x64 : Shape := ⟨2, ![1, 64]⟩
abbrev S100000x64 : Shape := ⟨2, ![100000, 64]⟩
abbrev S10000x3 : Shape := ⟨2, ![10000, 3]⟩
abbrev S10000x64 : Shape := ⟨2, ![10000, 64]⟩
abbrev S50000x64 : Shape := ⟨2, ![50000, 64]⟩
abbrev S5000x384 : Shape := ⟨2, ![5000, 384]⟩
abbrev S5000x64 : Shape := ⟨2, ![5000, 64]⟩
abbrev S_ : Shape := ⟨0, ![]⟩
abbrev S50000 : Shape := ⟨1, ![50000]⟩
abbrev S2000000x1 : Shape := ⟨2, ![2000000, 1]⟩
abbrev S100000 : Shape := ⟨1, ![100000]⟩
abbrev S2000000x64 : Shape := ⟨2, ![2000000, 64]⟩
abbrev S50000x1 : Shape := ⟨2, ![50000, 1]⟩
abbrev S100000x1 : Shape := ⟨2, ![100000, 1]⟩
abbrev S500000x1 : Shape := ⟨2, ![500000, 1]⟩
abbrev S500000x64 : Shape := ⟨2, ![500000, 64]⟩
abbrev S500000x128 : Shape := ⟨2, ![500000, 128]⟩
abbrev S1x128 : Shape := ⟨2, ![1, 128]⟩
abbrev S1x1 : Shape := ⟨2, ![1, 1]⟩
abbrev S10000x128 : Shape := ⟨2, ![10000, 128]⟩
abbrev S10000x1 : Shape := ⟨2, ![10000, 1]⟩

abbrev nBuf : Space → Nat
  | .hbm => 147
  | .vmem => 56
  | .smem => 0
  | _ => 0

abbrev hbmTy0_0 (i : Nat) : BufTy := match i % 128 with
  | 0 => ⟨S100000x3, .f32⟩
  | 1 => ⟨S50000x384, .f32⟩
  | 2 => ⟨S2000000, .i32⟩
  | 3 => ⟨S2000000, .i32⟩
  | 4 => ⟨S500000, .i32⟩
  | 5 => ⟨S500000, .i32⟩
  | 6 => ⟨S3x64, .f32⟩
  | 7 => ⟨S64, .f32⟩
  | 8 => ⟨S384x64, .f32⟩
  | 9 => ⟨S64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64x64, .f32⟩
  | 17 => ⟨S64, .f32⟩
  | 18 => ⟨S64x64, .f32⟩
  | 19 => ⟨S64x64, .f32⟩
  | 20 => ⟨S64, .f32⟩
  | 21 => ⟨S64x64, .f32⟩
  | 22 => ⟨S128x128, .f32⟩
  | 23 => ⟨S128, .f32⟩
  | 24 => ⟨S128x1, .f32⟩
  | 25 => ⟨S1, .f32⟩
  | 26 => ⟨S1x64, .f32⟩
  | 27 => ⟨S100000x64, .f32⟩
  | 28 => ⟨S1x64, .f32⟩
  | 29 => ⟨S50000x64, .f32⟩
  | 30 => ⟨S_, .f32⟩
  | 31 => ⟨S2000000, .f32⟩
  | 32 => ⟨S_, .f32⟩
  | 33 => ⟨S50000, .f32⟩
  | 34 => ⟨S2000000x1, .i32⟩
  | 35 => ⟨S50000, .f32⟩
  | 36 => ⟨S_, .f32⟩
  | 37 => ⟨S100000, .f32⟩
  | 38 => ⟨S2000000x1, .i32⟩
  | 39 => ⟨S100000, .f32⟩
  | 40 => ⟨S_, .f32⟩
  | 41 => ⟨S50000, .f32⟩
  | 42 => ⟨S50000, .f32⟩
  | 43 => ⟨S_, .f32⟩
  | 44 => ⟨S50000, .f32⟩
  | 45 => ⟨S50000, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x64, .f32⟩
  | 61 => ⟨S_, .f32⟩
  | 62 => ⟨S50000x64, .f32⟩
  | 63 => ⟨S2000000x1, .i32⟩
  | 64 => ⟨S50000x64, .f32⟩
  | 65 => ⟨S50000x1, .f32⟩
  | 66 => ⟨S50000x64, .f32⟩
  | 67 => ⟨S50000x64, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x64, .f32⟩
  | 77 => ⟨S_, .f32⟩
  | 78 => ⟨S100000x64, .f32⟩
  | 79 => ⟨S2000000x1, .i32⟩
  | 80 => ⟨S100000x64, .f32⟩
  | 81 => ⟨S100000x1, .f32⟩
  | 82 => ⟨S100000x64, .f32⟩
  | 83 => ⟨S100000x64, .f32⟩
  | 84 => ⟨S1x64, .f32⟩
  | 85 => ⟨S50000x64, .f32⟩
  | 86 => ⟨S1x64, .f32⟩
  | 87 => ⟨S100000x64, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000x64, .f32⟩
  | 97 => ⟨S_, .f32⟩
  | 98 => ⟨S50000x64, .f32⟩
  | 99 => ⟨S2000000x1, .i32⟩
  | 100 => ⟨S50000x64, .f32⟩
  | 101 => ⟨S50000x1, .f32⟩
  | 102 => ⟨S50000x64, .f32⟩
  | 103 => ⟨S50000x64, .f32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S2000000x1, .i32⟩
  | 112 => ⟨S2000000x64, .f32⟩
  | 113 => ⟨S_, .f32⟩
  | 114 => ⟨S100000x64, .f32⟩
  | 115 => ⟨S2000000x1, .i32⟩
  | 116 => ⟨S100000x64, .f32⟩
  | 117 => ⟨S100000x1, .f32⟩
  | 118 => ⟨S100000x64, .f32⟩
  | 119 => ⟨S100000x64, .f32⟩
  | 120 => ⟨S1x64, .f32⟩
  | 121 => ⟨S50000x64, .f32⟩
  | 122 => ⟨S1x64, .f32⟩
  | 123 => ⟨S100000x64, .f32⟩
  | 124 => ⟨S_, .i32⟩
  | 125 => ⟨S500000, .i32⟩
  | 126 => ⟨S500000, .i1⟩
  | 127 => ⟨S_, .i32⟩
  | _ => ⟨S100000x3, .f32⟩

abbrev hbmTy0_1 (i : Nat) : BufTy := match i % 128 with
  | 0 => ⟨S500000, .i32⟩
  | 1 => ⟨S500000, .i32⟩
  | 2 => ⟨S500000, .i32⟩
  | 3 => ⟨S500000x1, .i32⟩
  | 4 => ⟨S500000x64, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x64, .f32⟩
  | 14 => ⟨S500000x128, .f32⟩
  | 15 => ⟨S1x128, .f32⟩
  | 16 => ⟨S1x1, .f32⟩
  | 17 => ⟨S500000x1, .f32⟩
  | 18 => ⟨S500000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S3x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S5000x384, .f32⟩
  | .local _ .vmem, ⟨7, _⟩ => ⟨S5000x384, .f32⟩
  | .local _ .vmem, ⟨8, _⟩ => ⟨S384x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S64x64, .f32⟩
  | .local _ .vmem, ⟨26, _⟩ => ⟨S1x64, .f32⟩
  | .local _ .vmem, ⟨27, _⟩ => ⟨S64x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S64x64, .f32⟩
  | .local _ .vmem, ⟨44, _⟩ => ⟨S1x64, .f32⟩
  | .local _ .vmem, ⟨45, _⟩ => ⟨S64x64, .f32⟩
  | .local _ .vmem, ⟨46, _⟩ => ⟨S10000x64, .f32⟩
  | .local _ .vmem, ⟨47, _⟩ => ⟨S10000x64, .f32⟩
  | .local _ .vmem, ⟨48, _⟩ => ⟨S10000x128, .f32⟩
  | .local _ .vmem, ⟨49, _⟩ => ⟨S10000x128, .f32⟩
  | .local _ .vmem, ⟨50, _⟩ => ⟨S128x128, .f32⟩
  | .local _ .vmem, ⟨51, _⟩ => ⟨S1x128, .f32⟩
  | .local _ .vmem, ⟨52, _⟩ => ⟨S128x1, .f32⟩
  | .local _ .vmem, ⟨53, _⟩ => ⟨S1x1, .f32⟩
  | .local _ .vmem, ⟨54, _⟩ => ⟨S10000x1, .f32⟩
  | .local _ .vmem, ⟨55, _⟩ => ⟨S10000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_v13 : Ref sig .tc := ⟨.hbm, 44, rfl⟩
abbrev main_v14 : Ref sig .tc := ⟨.hbm, 45, rfl⟩
abbrev main_cst_4 : Ref sig .tc := ⟨.hbm, 46, rfl⟩
abbrev main_v15 : Ref sig .tc := ⟨.hbm, 47, rfl⟩
abbrev main_v16 : Ref sig .tc := ⟨.hbm, 48, rfl⟩
abbrev main_cst_5 : Ref sig .tc := ⟨.hbm, 49, rfl⟩
abbrev main_v17 : Ref sig .tc := ⟨.hbm, 50, rfl⟩
abbrev main_v18 : Ref sig .tc := ⟨.hbm, 51, rfl⟩
abbrev main_c : Ref sig .tc := ⟨.hbm, 52, rfl⟩
abbrev main_v19 : Ref sig .tc := ⟨.hbm, 53, rfl⟩
abbrev main_v20 : Ref sig .tc := ⟨.hbm, 54, rfl⟩
abbrev main_c_6 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_7 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_8 : Ref sig .tc := ⟨.hbm, 68, rfl⟩
abbrev main_v32 : Ref sig .tc := ⟨.hbm, 69, rfl⟩
abbrev main_v33 : Ref sig .tc := ⟨.hbm, 70, rfl⟩
abbrev main_c_9 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_10 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_c_11 : Ref sig .tc := ⟨.hbm, 88, rfl⟩
abbrev main_v49 : Ref sig .tc := ⟨.hbm, 89, rfl⟩
abbrev main_v50 : Ref sig .tc := ⟨.hbm, 90, rfl⟩
abbrev main_c_12 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_13 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_14 : Ref sig .tc := ⟨.hbm, 104, rfl⟩
abbrev main_v62 : Ref sig .tc := ⟨.hbm, 105, rfl⟩
abbrev main_v63 : Ref sig .tc := ⟨.hbm, 106, rfl⟩
abbrev main_c_15 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_16 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_17 : Ref sig .tc := ⟨.hbm, 124, rfl⟩
abbrev main_v79 : Ref sig .tc := ⟨.hbm, 125, rfl⟩
abbrev main_v80 : Ref sig .tc := ⟨.hbm, 126, rfl⟩
abbrev main_c_18 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_19 : Ref sig .tc := ⟨.hbm, 133, rfl⟩
abbrev main_v86 : Ref sig .tc := ⟨.hbm, 134, rfl⟩
abbrev main_v87 : Ref sig .tc := ⟨.hbm, 135, rfl⟩
abbrev main_c_20 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  shapeCasts_S64_S1x64 : S64.ShapeCasts S1x64
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S5000x384_S5000x384_0_0 : ∀ a, (![0, 0] : Fin 2 → Nat) a + S5000x384.size a ≤ S5000x384.size a
  h_S5000x384 : 0 < S5000x384.numel
  inb_S384x64_S384x64_0_0 : ∀ a, (![0, 0] : Fin 2 → Nat) a + S384x64.size a ≤ S384x64.size a
  h_S384x64 : 0 < S384x64.numel
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S2000000 : S_.BroadcastsInDim S2000000 (![] : Fin 0 → Fin S2000000.rank)
  bcast_S_S50000 : S_.BroadcastsInDim S50000 (![] : Fin 0 → Fin S50000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  dot_S10000x3_S3x64_S10000x64_1_0_0_1_n_n_wf : DotDims.WF S10000x3 S3x64 S10000x64 [1] [0] [0] [1] [] []
  dot_S5000x384_S384x64_S5000x64_1_0_0_1_n_n_wf : DotDims.WF S5000x384 S384x64 S5000x64 [1] [0] [0] [1] [] []
  scatter_S50000_S2000000x1_S2000000_n_0_0_1_wf : ScatterDims.WF S50000 S2000000x1 S2000000 [] [0] [0] 1
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  dot_S10000x64_S64x64_S10000x64_1_0_0_1_n_n_wf : DotDims.WF S10000x64 S64x64 S10000x64 [1] [0] [0] [1] [] []
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x384.size a ≤ S50000x384.size a
  hwx1_0 : ∀ i : grid1.Coords, EltTy.bits .f32 = 32 ∨ (Rect.block (s := S50000x384) S5000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x64.size a ≤ S384x64.size a
  hwx1_1 : ∀ i : grid1.Coords, EltTy.bits .f32 = 32 ∨ (Rect.block (s := S384x64) S384x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S50000x64.size a
  hwx4_5 : ∀ i : grid4.Coords, EltTy.bits .f32 = 32 ∨ (Rect.block (s := S50000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S500000x128.size a
  hwx6_0 : ∀ i : grid6.Coords, EltTy.bits .f32 = 32 ∨ (Rect.block (s := S500000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x1.size a ≤ S500000x1.size a
  hwx6_5 : ∀ i : grid6.Coords, EltTy.bits .f32 = 32 ∨ (Rect.block (s := S500000x1) S10000x1.size (cc6_transform_5 i) (hinb6_5 i)).WholeWords (EltTy.packing .f32)

variable [Facts₀]

def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def dot_S5000x384_S384x64_S5000x64_1_0_0_1_n_n : DotDims S5000x384 S384x64 S5000x64 where
  lhsContracting := [1]
  rhsContracting := [0]
  lhsNonContracting := [0]
  rhsNonContracting := [1]
  lhsBatch := []
  rhsBatch := []
  wf := dot_S5000x384_S384x64_S5000x64_1_0_0_1_n_n_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg16) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v74) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg19) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg21) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v78) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v93) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg22) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg24) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v95) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v96) S10000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x3 : Shape := ⟨2, ![100000, 3]⟩
abbrev S50000x384 : Shape := ⟨2, ![50000, 384]⟩
abbrev S2000000 : Shape := ⟨1, ![2000000]⟩
abbrev S500000 : Shape := ⟨1, ![500000]⟩
abbrev S3x64 : Shape := ⟨2, ![3, 64]⟩
abbrev S64 : Shape := ⟨1, ![64]⟩
abbrev S384x64 : Shape := ⟨2, ![384, 64]⟩
abbrev S64x64 : Shape := ⟨2, ![64, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000x64 : Shape := ⟨2, ![100000, 64]⟩
abbrev S1x64 : Shape := ⟨2, ![1, 64]⟩
abbrev S50000x64 : Shape := ⟨2, ![50000, 64]⟩
abbrev S_ : Shape := ⟨0, ![]⟩
abbrev S2000000x1 : Shape := ⟨2, ![2000000, 1]⟩
abbrev S2000000x64 : Shape := ⟨2, ![2000000, 64]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S500000x1 : Shape := ⟨2, ![500000, 1]⟩
abbrev S500000x64 : Shape := ⟨2, ![500000, 64]⟩
abbrev S500000x128 : Shape := ⟨2, ![500000, 128]⟩
abbrev S1x128 : Shape := ⟨2, ![1, 128]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S100000x3, .f32⟩
  | 1 => ⟨S50000x384, .f32⟩
  | 2 => ⟨S2000000, .i32⟩
  | 3 => ⟨S2000000, .i32⟩
  | 4 => ⟨S500000, .i32⟩
  | 5 => ⟨S500000, .i32⟩
  | 6 => ⟨S3x64, .f32⟩
  | 7 => ⟨S64, .f32⟩
  | 8 => ⟨S384x64, .f32⟩
  | 9 => ⟨S64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64x64, .f32⟩
  | 17 => ⟨S64, .f32⟩
  | 18 => ⟨S64x64, .f32⟩
  | 19 => ⟨S64x64, .f32⟩
  | 20 => ⟨S64, .f32⟩
  | 21 => ⟨S64x64, .f32⟩
  | 22 => ⟨S128x128, .f32⟩
  | 23 => ⟨S128, .f32⟩
  | 24 => ⟨S128x1, .f32⟩
  | 25 => ⟨S1, .f32⟩
  | 26 => ⟨S100000x64, .f32⟩
  | 27 => ⟨S1x64, .f32⟩
  | 28 => ⟨S100000x64, .f32⟩
  | 29 => ⟨S100000x64, .f32⟩
  | 30 => ⟨S50000x64, .f32⟩
  | 31 => ⟨S1x64, .f32⟩
  | 32 => ⟨S50000x64, .f32⟩
  | 33 => ⟨S50000x64, .f32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000x64, .f32⟩
  | 43 => ⟨S_, .f32⟩
  | 44 => ⟨S50000x64, .f32⟩
  | 45 => ⟨S2000000x1, .i32⟩
  | 46 => ⟨S50000x64, .f32⟩
  | 47 => ⟨S_, .f32⟩
  | 48 => ⟨S2000000, .f32⟩
  | 49 => ⟨S_, .f32⟩
  | 50 => ⟨S50000, .f32⟩
  | 51 => ⟨S2000000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S50000x64, .f32⟩
  | 64 => ⟨S50000x64, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x64, .f32⟩
  | 74 => ⟨S_, .f32⟩
  | 75 => ⟨S100000x64, .f32⟩
  | 76 => ⟨S2000000x1, .i32⟩
  | 77 => ⟨S100000x64, .f32⟩
  | 78 => ⟨S_, .f32⟩
  | 79 => ⟨S2000000, .f32⟩
  | 80 => ⟨S_, .f32⟩
  | 81 => ⟨S100000, .f32⟩
  | 82 => ⟨S2000000x1, .i32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .f32⟩
  | 100 => ⟨S50000x64, .f32⟩
  | 101 => ⟨S50000x64, .f32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x64, .f32⟩
  | 111 => ⟨S_, .f32⟩
  | 112 => ⟨S50000x64, .f32⟩
  | 113 => ⟨S2000000x1, .i32⟩
  | 114 => ⟨S50000x64, .f32⟩
  | 115 => ⟨S_, .f32⟩
  | 116 => ⟨S2000000, .f32⟩
  | 117 => ⟨S_, .f32⟩
  | 118 => ⟨S50000, .f32⟩
  | 119 => ⟨S2000000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x64, .f32⟩
  | 126 => ⟨S50000x64, .f32⟩
  | 127 => ⟨S50000x64, .f32⟩
  | _ => ⟨S100000x3, .f32⟩

abbrev hbmTy0_1 (i : Nat) : BufTy := match i % 128 with
  | 0 => ⟨S1x64, .f32⟩
  | 1 => ⟨S50000x64, .f32⟩
  | 2 => ⟨S50000x64, .f32⟩
  | 3 => ⟨S50000x64, .f32⟩
  | 4 => ⟨S50000x64, .f32⟩
  | 5 => ⟨S_, .i32⟩
  | 6 => ⟨S2000000, .i32⟩
  | 7 => ⟨S2000000, .i1⟩
  | 8 => ⟨S_, .i32⟩
  | 9 => ⟨S2000000, .i32⟩
  | 10 => ⟨S2000000, .i32⟩
  | 11 => ⟨S2000000, .i32⟩
  | 12 => ⟨S2000000x1, .i32⟩
  | 13 => ⟨S2000000x64, .f32⟩
  | 14 => ⟨S_, .f32⟩
  | 15 => ⟨S100000x64, .f32⟩
  | 16 => ⟨S2000000x1, .i32⟩
  | 17 => ⟨S100000x64, .f32⟩
  | 18 => ⟨S_, .f32⟩
  | 19 => ⟨S2000000, .f32⟩
  | 20 => ⟨S_, .f32⟩
  | 21 => ⟨S100000, .f32⟩
  | 22 => ⟨S2000000x1, .i32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S100000x64, .f32⟩
  | 35 => ⟨S100000x64, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x64, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x64, .f32⟩
  | 54 => ⟨S500000x128, .f32⟩
  | 55 => ⟨S500000x128, .f32⟩
  | 56 => ⟨S1x128, .f32⟩
  | 57 => ⟨S500000x128, .f32⟩
  | 58 => ⟨S500000x128, .f32⟩
  | 59 => ⟨S_, .f32⟩
  | 60 => ⟨S500000x128, .f32⟩
  | 61 => ⟨S500000x128, .f32⟩
  | 62 => ⟨S500000x1, .f32⟩
  | 63 => ⟨S1x1, .f32⟩
  | 64 => ⟨S500000x1, .f32⟩
  | 65 => ⟨S500000x1, .f32⟩
  | 66 => ⟨S500000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c : Ref sig .tc := ⟨.hbm, 34, rfl⟩
abbrev main_v8 : Ref sig .tc := ⟨.hbm, 35, rfl⟩
abbrev main_v9 : Ref sig .tc := ⟨.hbm, 36, rfl⟩
abbrev main_c_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_1 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_4 : Ref sig .tc := ⟨.hbm, 65, rfl⟩
abbrev main_v33 : Ref sig .tc := ⟨.hbm, 66, rfl⟩
abbrev main_v34 : Ref sig .tc := ⟨.hbm, 67, rfl⟩
abbrev main_c_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_cst_8 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_call0_cst : Ref sig .tc := ⟨.hbm, 96, rfl⟩
abbrev main_call0_v0 : Ref sig .tc := ⟨.hbm, 97, rfl⟩
abbrev main_v58 : Ref sig .tc := ⟨.hbm, 98, rfl⟩
abbrev main_call1_cst : Ref sig .tc := ⟨.hbm, 99, rfl⟩
abbrev main_call1_v0 : Ref sig .tc := ⟨.hbm, 100, rfl⟩
abbrev main_v59 : Ref sig .tc := ⟨.hbm, 101, rfl⟩
abbrev main_c_10 : Ref sig .tc := ⟨.hbm, 102, rfl⟩
abbrev main_v60 : Ref sig .tc := ⟨.hbm, 103, rfl⟩
abbrev main_v61 : Ref sig .tc := ⟨.hbm, 104, rfl⟩
abbrev main_c_11 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_12 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_13 : Ref sig .tc := ⟨.hbm, 115, rfl⟩
abbrev main_v70 : Ref sig .tc := ⟨.hbm, 116, rfl⟩
abbrev main_cst_14 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_15 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_c_16 : Ref sig .tc := ⟨.hbm, 133, rfl⟩
abbrev main_v85 : Ref sig .tc := ⟨.hbm, 134, rfl⟩
abbrev main_v86 : Ref sig .tc := ⟨.hbm, 135, rfl⟩
abbrev main_c_17 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_18 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_19 : Ref sig .tc := ⟨.hbm, 146, rfl⟩
abbrev main_v95 : Ref sig .tc := ⟨.hbm, 147, rfl⟩
abbrev main_cst_20 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_21 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_c_22 : Ref sig .tc := ⟨.hbm, 164, rfl⟩
abbrev main_v110 : Ref sig .tc := ⟨.hbm, 165, rfl⟩
abbrev main_v111 : Ref sig .tc := ⟨.hbm, 166, rfl⟩
abbrev main_c_23 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_24 : Ref sig .tc := ⟨.hbm, 173, rfl⟩
abbrev main_v117 : Ref sig .tc := ⟨.hbm, 174, rfl⟩
abbrev main_v118 : Ref sig .tc := ⟨.hbm, 175, rfl⟩
abbrev main_c_25 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_call2_cst : Ref sig .tc := ⟨.hbm, 187, rfl⟩
abbrev main_call2_v0 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S50000x64_0_1 : S1x64.BroadcastsInDim S50000x64 (![0, 1] : Fin 2 → Fin S50000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  dot_S100000x3_S3x64_S100000x64_1_0_0_1_n_n_wf : DotDims.WF S100000x3 S3x64 S100000x64 [1] [0] [0] [1] [] []
  dot_S50000x384_S384x64_S50000x64_1_0_0_1_n_n_wf : DotDims.WF S50000x384 S384x64 S50000x64 [1] [0] [0] [1] [] []
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  dot_S50000x64_S64x64_S50000x64_1_0_0_1_n_n_wf : DotDims.WF S50000x64 S64x64 S50000x64 [1] [0] [0] [1] [] []
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  gather_S50000x64_S500000x1_S500000x64_1_0_n_n_0_1_164_wf : GatherDims.WF S50000x64 S500000x1 S500000x64 [1] [0] [] [0] [] 1 ![1, 64]
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def dot_S50000x384_S384x64_S50000x64_1_0_0_1_n_n : DotDims S50000x384 S384x64 S50000x64 where
  lhsContracting := [1]
  rhsContracting := [0]
  lhsNonContracting := [0]
  rhsNonContracting := [1]
  lhsBatch := []
  rhsBatch := []
  wf := dot_S50000x384_S384x64_S50000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KRun.lean ====
/-
  The idealized kernel's run, with every buffer that outlives a pallas_call named.

  @main is fifteen segments: eight stretches of host operations around seven pallas_calls. Every weakly fair execution
  terminates, and in every final state each unscoped buffer holds what the fold of the segments over the launch memory
  leaves there: a host stretch rewrites the buffers its operations write, a pallas_call leaves its output array at what
  its grid points wrote back and every other buffer as entered. In particular the result buffer holds the last
  boundary's contents and the arguments hold their launch contents.
-/
import proofs.«122789_j29807073034304_1_alg».proof.Proof.Gen.KernelIdeal.Frame

set_option maxRecDepth 16384

noncomputable section

namespace Cert.KernelIdeal.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and each unscoped buffer ends at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- The result buffer ends at the last boundary's contents, the arguments at their launch contents. -/
theorem run_result : θ_run defs (onTc (τ := τ) (main (F := F))) ⟨m, fun _ => 0, ρ⟩ (fun r => ∀ c : Dev nD,
      r.2.mem ((c.tc : Thread nD τ).loc main_v97) = W15 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun s h c =>
      ⟨h c _ (mem_uc main_v97 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c),
       (h c _ (mem_uc main_arg25 (by decide))).trans (W15_main_arg25 m ρ c)⟩)
    (run_boundary m ρ)

end Cert.KernelIdeal.Walk

end
-- ==== Proof.Walk.lean ====
/-
  Reading a buffer at a boundary of the idealized kernel's @main back to where it was last written.

  A pallas_call writes its result array only, and a host operation its own result buffer only; so the contents of a
  buffer at a later boundary are its contents at the boundary right after the segment that wrote it — for an argument,
  the launch contents.
-/
import proofs.«122789_j29807073034304_1_alg».proof.Proof.Gen.KernelIdeal.Frame
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- Pallas call 0 leaves every buffer but its result as entered: an input array is read, never written. -/
theorem keep0 (c : Dev nD) {b : Ref sig .tc} (hb : b ≠ main_v1) :
    W2 m ρ c (no_index (Proc.devRef .tc b)) = W1 m ρ c (Proc.devRef .tc b) := by
  by_cases h : ∀ w, Pipeline.arrRef spec0 w ≠ b
  · exact W2_of_ne m ρ c b h
  · push Not at h
    obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact absurd rfl hb

/-- Pallas call 1 leaves every buffer but its result as entered: an input array is read, never written. -/
theorem keep1 (c : Dev nD) {b : Ref sig .tc} (hb : b ≠ main_v3) :
    W4 m ρ c (no_index (Proc.devRef .tc b)) = W3 m ρ c (Proc.devRef .tc b) := by
  by_cases h : ∀ w, Pipeline.arrRef spec1 w ≠ b
  · exact W4_of_ne m ρ c b h
  · push Not at h
    obtain ⟨w, rfl⟩ := h
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact absurd rfl hb

/-- Pallas call 2 leaves every buffer but its result as entered: an input array is read, never written. -/
theorem keep2 (c : Dev nD) {b : Ref sig .tc} (hb : b ≠ main_v46) :
    W6 m ρ c (no_index (Proc.devRef .tc b)) = W5 m ρ c (Proc.devRef .tc b) := by
  by_cases h : ∀ w, Pipeline.arrRef spec2 w ≠ b
  · exact W6_of_ne m ρ c b h
  · push Not at h
    obtain ⟨w, rfl⟩ := h
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact (W6_arr m ρ c 4).trans (((dat2 (V5 m ρ) c).arrAt_in 4 rfl _).trans (A_eq2 (V5 m ρ) c 4))
    · exact absurd rfl hb

/-- Pallas call 3 leaves every buffer but its result as entered: an input array is read, never written. -/
theorem keep3 (c : Dev nD) {b : Ref sig .tc} (hb : b ≠ main_v48) :
    W8 m ρ c (no_index (Proc.devRef .tc b)) = W7 m ρ c (Proc.devRef .tc b) := by
  by_cases h : ∀ w, Pipeline.arrRef spec3 w ≠ b
  · exact W8_of_ne m ρ c b h
  · push Not at h
    obtain ⟨w, rfl⟩ := h
    fin_cases w
    · exact (W8_arr m ρ c 0).trans (((dat3 (V7 m ρ) c).arrAt_in 0 rfl _).trans (A_eq3 (V7 m ρ) c 0))
    · exact (W8_arr m ρ c 1).trans (((dat3 (V7 m ρ) c).arrAt_in 1 rfl _).trans (A_eq3 (V7 m ρ) c 1))
    · exact (W8_arr m ρ c 2).trans (((dat3 (V7 m ρ) c).arrAt_in 2 rfl _).trans (A_eq3 (V7 m ρ) c 2))
    · exact (W8_arr m ρ c 3).trans (((dat3 (V7 m ρ) c).arrAt_in 3 rfl _).trans (A_eq3 (V7 m ρ) c 3))
    · exact (W8_arr m ρ c 4).trans (((dat3 (V7 m ρ) c).arrAt_in 4 rfl _).trans (A_eq3 (V7 m ρ) c 4))
    · exact absurd rfl hb

/-- Pallas call 4 leaves every buffer but its result as entered: an input array is read, never written. -/
theorem keep4 (c : Dev nD) {b : Ref sig .tc} (hb : b ≠ main_v76) :
    W10 m ρ c (no_index (Proc.devRef .tc b)) = W9 m ρ c (Proc.devRef .tc b) := by
  by_cases h : ∀ w, Pipeline.arrRef spec4 w ≠ b
  · exact W10_of_ne m ρ c b h
  · push Not at h
    obtain ⟨w, rfl⟩ := h
    fin_cases w
    · exact (W10_arr m ρ c 0).trans (((dat4 (V9 m ρ) c).arrAt_in 0 rfl _).trans (A_eq4 (V9 m ρ) c 0))
    · exact (W10_arr m ρ c 1).trans (((dat4 (V9 m ρ) c).arrAt_in 1 rfl _).trans (A_eq4 (V9 m ρ) c 1))
    · exact (W10_arr m ρ c 2).trans (((dat4 (V9 m ρ) c).arrAt_in 2 rfl _).trans (A_eq4 (V9 m ρ) c 2))
    · exact (W10_arr m ρ c 3).trans (((dat4 (V9 m ρ) c).arrAt_in 3 rfl _).trans (A_eq4 (V9 m ρ) c 3))
    · exact (W10_arr m ρ c 4).trans (((dat4 (V9 m ρ) c).arrAt_in 4 rfl _).trans (A_eq4 (V9 m ρ) c 4))
    · exact absurd rfl hb

/-- Pallas call 5 leaves every buffer but its result as entered: an input array is read, never written. -/
theorem keep5 (c : Dev nD) {b : Ref sig .tc} (hb : b ≠ main_v78) :
    W12 m ρ c (no_index (Proc.devRef .tc b)) = W11 m ρ c (Proc.devRef .tc b) := by
  by_cases h : ∀ w, Pipeline.arrRef spec5 w ≠ b
  · exact W12_of_ne m ρ c b h
  · push Not at h
    obtain ⟨w, rfl⟩ := h
    fin_cases w
    · exact (W12_arr m ρ c 0).trans (((dat5 (V11 m ρ) c).arrAt_in 0 rfl _).trans (A_eq5 (V11 m ρ) c 0))
    · exact (W12_arr m ρ c 1).trans (((dat5 (V11 m ρ) c).arrAt_in 1 rfl _).trans (A_eq5 (V11 m ρ) c 1))
    · exact (W12_arr m ρ c 2).trans (((dat5 (V11 m ρ) c).arrAt_in 2 rfl _).trans (A_eq5 (V11 m ρ) c 2))
    · exact (W12_arr m ρ c 3).trans (((dat5 (V11 m ρ) c).arrAt_in 3 rfl _).trans (A_eq5 (V11 m ρ) c 3))
    · exact (W12_arr m ρ c 4).trans (((dat5 (V11 m ρ) c).arrAt_in 4 rfl _).trans (A_eq5 (V11 m ρ) c 4))
    · exact absurd rfl hb

/-- Pallas call 6 leaves every buffer but its result as entered: an input array is read, never written. -/
theorem keep6 (c : Dev nD) {b : Ref sig .tc} (hb : b ≠ main_v96) :
    W14 m ρ c (no_index (Proc.devRef .tc b)) = W13 m ρ c (Proc.devRef .tc b) := by
  by_cases h : ∀ w, Pipeline.arrRef spec6 w ≠ b
  · exact W14_of_ne m ρ c b h
  · push Not at h
    obtain ⟨w, rfl⟩ := h
    fin_cases w
    · exact (W14_arr m ρ c 0).trans (((dat6 (V13 m ρ) c).arrAt_in 0 rfl _).trans (A_eq6 (V13 m ρ) c 0))
    · exact (W14_arr m ρ c 1).trans (((dat6 (V13 m ρ) c).arrAt_in 1 rfl _).trans (A_eq6 (V13 m ρ) c 1))
    · exact (W14_arr m ρ c 2).trans (((dat6 (V13 m ρ) c).arrAt_in 2 rfl _).trans (A_eq6 (V13 m ρ) c 2))
    · exact (W14_arr m ρ c 3).trans (((dat6 (V13 m ρ) c).arrAt_in 3 rfl _).trans (A_eq6 (V13 m ρ) c 3))
    · exact (W14_arr m ρ c 4).trans (((dat6 (V13 m ρ) c).arrAt_in 4 rfl _).trans (A_eq6 (V13 m ρ) c 4))
    · exact absurd rfl hb

/-- Walks a buffer's contents at a boundary back through every segment that does not write it (a boundary's name unfolds
    to the host stretch before it; a pallas_call is crossed by its `keep` fact): to the launch contents for an argument,
    to a pallas_call's exit for its result. -/
macro "walk" : tactic => `(tactic| simp (disch := decide) only [V1, V3, V5, V7, V9, V11, V13, W1, W3, W5, W7, W9, W11, W13, W15,
  hostOps0, hostOps1, hostOps2, hostOps3, hostOps4, hostOps5, hostOps6, hostOps7,
  after_cons, after_nil, nullary_result', unary_result', binary_result', ternary_result', quaternary_result', reshape_result',
  nullary_result_ne', unary_result_ne', binary_result_ne', ternary_result_ne', quaternary_result_ne', reshape_result_ne',
  keep0, keep1, keep2, keep3, keep4, keep5, keep6])

/-- The same from the fourth pallas_call's entry through the host stretch before it and the pallas_call before that only. -/
macro "walk7" : tactic => `(tactic| simp (disch := decide) only [V7, W7, hostOps3,
  after_cons, after_nil, nullary_result', unary_result', binary_result', ternary_result', quaternary_result', reshape_result',
  nullary_result_ne', unary_result_ne', binary_result_ne', ternary_result_ne', quaternary_result_ne', reshape_result_ne',
  keep0, keep1, keep2, keep3, keep4, keep5, keep6])

/-- The same from the sixth pallas_call's entry through the host stretch before it and the pallas_call before that only. -/
macro "walk11" : tactic => `(tactic| simp (disch := decide) only [V11, W11, hostOps5,
  after_cons, after_nil, nullary_result', unary_result', binary_result', ternary_result', quaternary_result', reshape_result',
  nullary_result_ne', unary_result_ne', binary_result_ne', ternary_result_ne', quaternary_result_ne', reshape_result_ne',
  keep0, keep1, keep2, keep3, keep4, keep5, keep6])

/-- An argument read at the last pallas_call's entry holds its launch contents: no earlier segment writes it. -/
theorem arg22_at_13 (c : Dev nD) : W13 m ρ c (Proc.devRef .tc main_arg22) = m ((c : Thread nD τ).loc main_arg22) := by
  walk

end Cert.KernelIdeal.Walk

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibDenseLayer.lean ====
/-
  A dense layer, written two ways, on the extended reals.

  * `matmul_zero_eq_dotGeneral`: a plain m×k by k×n matrix product accumulated into the zero matrix is the host's
    plain product of the same matrices: both read, at (a, b), the sum over the contracted coordinate c of
    A(a, c) · B(c, b).
  * `biasRow_eq`: a length-b vector cast to a [1, b] row and repeated down a rows is the same [a, b] array as the
    host's two broadcasts (first to [1, b] along axis 1, then to [a, b]): both read, at (p, q), the vector at q.
  * `dense_apply`: the host's plain product plus the bias row, read at an entry.
  * `splat_eq`: a scalar repeated over a shape is the host's broadcast of the rank-zero constant of the same bits.
-/
import Idealize.ShloMosaic.PureOps.Ideal.Laws
import Idealize.ShloMosaic.Lib.ValueIdx
import Idealize.ShloMosaic.Lib.ValueLayout
import Idealize.ShloMosaic.Lib.Pipeline.Value
import proofs.«122789_j29807073034304_1_alg».proof.Proof.LibPlainMatmul
import proofs.«122789_j29807073034304_1_alg».proof.Proof.LibPlainDot

noncomputable section

namespace Cert.LibDenseLayer

open Idealize.ShloMosaic Idealize.ShloMosaic.ValueIdx

/-- Accumulated into zero, the plain product of an m×k by a k×n matrix is the host's plain product. -/
theorem matmul_zero_eq_dotGeneral {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32)
      = Host.dotGeneral (DotDims.plain m k n) prec A B := by
  funext i
  obtain ⟨a, b, rfl⟩ : ∃ (a : Fin m) (b : Fin n), i = ix2 a b := ⟨i 0, i 1, eq_ix2 i⟩
  rw [matmul_plain_zero_apply, hostDotGeneral_plain_apply]

/-- A dense layer at an entry: the host's plain product plus the bias row reads, at (a, b), the sum over the contracted
    coordinate c of A(a, c) · B(c, b), plus the bias at b. -/
theorem dense_apply {m k n : Nat} {φ : FTy} (prec : Option ContractPrecision)
    (A : FVec Ideal ⟨2, ![m, k]⟩ φ) (B : FVec Ideal ⟨2, ![k, n]⟩ φ) (v : FVec Ideal ⟨1, ![n]⟩ φ)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    addf (Host.dotGeneral (DotDims.plain m k n) prec A B)
        (broadcastInDim ⟨2, ![m, n]⟩ ![0, 1] g2 (broadcastInDim ⟨2, ![1, n]⟩ ![1] g1 v)) (ix2 a b)
      = (∑ c : Fin k, A (ix2 a c) * B (ix2 c b)) + v (ix1 b) := by
  show Host.dotGeneral (DotDims.plain m k n) prec A B (ix2 a b)
      + broadcastInDim ⟨2, ![m, n]⟩ ![0, 1] g2 (broadcastInDim ⟨2, ![1, n]⟩ ![1] g1 v) (ix2 a b) = _
  rw [hostDotGeneral_plain_apply]
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

variable {α : Type}

/-- A vector as a row repeated down the rows, the vector way and the host way. -/
theorem biasRow_eq {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ v h1) h2
      = broadcastInDim ⟨2, ![a, b]⟩ ![0, 1] g2 (broadcastInDim ⟨2, ![1, b]⟩ ![1] g1 v) := by
  funext i
  obtain ⟨p, q, rfl⟩ : ∃ (p : Fin a) (q : Fin b), i = ix2 p q := ⟨i 0, i 1, eq_ix2 i⟩
  rw [broadcastTo_1b_ab_apply, shapeCast_a_1a_apply]
  have hq : q.val = if b = 1 then 0 else q.val := by
    split
    · have := q.isLt; omega
    · rfl
  have hk2 : ∀ ax : Fin 2, ((ix2 (0 : Fin 1) q : (⟨2, ![1, b]⟩ : Shape).Idx) ax).val
      = if (⟨2, ![1, b]⟩ : Shape).size ax = 1 then 0 else ((ix2 p q : (⟨2, ![a, b]⟩ : Shape).Idx) ((![0, 1] : Fin 2 → Fin 2) ax)).val := fun ax =>
    match ax with
    | ⟨0, _⟩ => rfl
    | ⟨1, _⟩ => hq
  have hk1 : ∀ ax : Fin 1, ((ix1 q : (⟨1, ![b]⟩ : Shape).Idx) ax).val
      = if (⟨1, ![b]⟩ : Shape).size ax = 1 then 0 else ((ix2 (0 : Fin 1) q : (⟨2, ![1, b]⟩ : Shape).Idx) ((![1] : Fin 1 → Fin 2) ax)).val := fun ax =>
    match ax with
    | ⟨0, _⟩ => hq
  rw [broadcastInDim_apply _ g2 _ (ix2 p q) (ix2 (0 : Fin 1) q) hk2, broadcastInDim_apply _ g1 v (ix2 (0 : Fin 1) q) (ix1 q) hk1]

/-- A scalar repeated over a shape is the host's broadcast of the rank-zero constant of the same bits. -/
theorem splat_eq {F : FTy → Type} [FloatOps F] {s : Shape} {φ : FTy} (bits : BitVec φ.bits)
    (g : (⟨0, ![]⟩ : Shape).BroadcastsInDim s ![]) :
    (broadcast s (Scalar.ofBits φ bits : F φ) : FVec F s φ)
      = broadcastInDim s ![] g (constant (F := F) ⟨0, ![]⟩ φ bits) := by
  funext i
  rfl

end Cert.LibDenseLayer

end
-- ==== Proof.LibDenseRows.lean ====
/-
  A dense layer on a block of rows, on the extended reals.

  For an m×k matrix X, a k×n matrix W and a one-row matrix r the function `denseRows X W r` reads, at (a, b),
  Σ_c X(a, c) · W(c, b) + r(0, b). It is computed three ways:
  * a block's product into the zero accumulator plus the row repeated down the block (`block_dense`);
  * the host's product plus its two broadcasts of a length-n vector v, r being that vector laid out as a row
    (`host_dense`);
  * with X first clamped below at zero, which is done entry by entry and so commutes with reading a block
    (`clamp0`, `host_clamp0`, `block_clamp0`).
  A narrowing or a widening change of float format is the identity on the extended reals, so neither shows.
-/
import Idealize.ShloMosaic.PureOps.Ideal.Laws
import Idealize.ShloMosaic.Lib.ValueIdx
import Idealize.ShloMosaic.Lib.ValueLayout
import Idealize.ShloMosaic.Lib.Pipeline.Value
import proofs.«122789_j29807073034304_1_alg».proof.Proof.LibDenseLayer

noncomputable section

open scoped BigOperators

namespace Cert.DenseRows

open Idealize.ShloMosaic Idealize.ShloMosaic.ValueIdx

/-- Row a of X against column b of W, plus the row matrix r at column b. -/
def denseRows {m k n : ℕ} (X : (⟨2, ![m, k]⟩ : Shape).Idx → EReal) (W : (⟨2, ![k, n]⟩ : Shape).Idx → EReal)
    (r : (⟨2, ![1, n]⟩ : Shape).Idx → EReal) : (⟨2, ![m, n]⟩ : Shape).Idx → EReal :=
  fun i => (∑ c : Fin k, X (ix2 (i 0) c) * W (ix2 c (i 1))) + r (ix2 (0 : Fin 1) (i 1))

theorem denseRows_apply {m k n : ℕ} (X : (⟨2, ![m, k]⟩ : Shape).Idx → EReal) (W : (⟨2, ![k, n]⟩ : Shape).Idx → EReal)
    (r : (⟨2, ![1, n]⟩ : Shape).Idx → EReal) (a : Fin m) (b : Fin n) :
    denseRows X W r (ix2 a b) = (∑ c : Fin k, X (ix2 a c) * W (ix2 c b)) + r (ix2 (0 : Fin 1) b) := rfl

/-- A block's plain product into the zero accumulator, plus the one-row matrix repeated down the block, then narrowed:
    the dense layer of the block's rows. -/
theorem block_dense {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32)
    (h1 : (⟨2, ![1, n]⟩ : Shape).ShapeCasts ⟨2, ![1, n]⟩) (h2 : (⟨2, ![1, n]⟩ : Shape).Broadcasts ⟨2, ![m, n]⟩)
    (ht : FTy.bf16.bits < FTy.f32.bits) :
    (truncf .bf16 (addf (matmul (DotDims.plain m k n) none x0 x1 (constant ⟨2, ![m, n]⟩ .f32 0x00000000#32))
        (broadcastTo ⟨2, ![m, n]⟩ (shapeCast ⟨2, ![1, n]⟩ x2 h1) h2)) ht : FVec Ideal ⟨2, ![m, n]⟩ .bf16)
      = denseRows x0 x1 x2 := by
  funext i
  obtain ⟨a, b, rfl⟩ : ∃ (a : Fin m) (b : Fin n), i = ix2 a b := ⟨i 0, i 1, eq_ix2 i⟩
  show matmul (DotDims.plain m k n) none x0 x1 (constant ⟨2, ![m, n]⟩ .f32 0x00000000#32) (ix2 a b)
      + broadcastTo ⟨2, ![m, n]⟩ (shapeCast ⟨2, ![1, n]⟩ x2 h1) h2 (ix2 a b) = _
  rw [matmul_plain_zero_apply, broadcastTo_1b_ab_apply, shapeCast_self, denseRows_apply]

/-- The host's plain product plus its two broadcasts of a length-n vector: the dense layer with that vector as the row. -/
theorem host_dense {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (h : (⟨1, ![n]⟩ : Shape).ShapeCasts ⟨2, ![1, n]⟩) :
    addf (Host.dotGeneral (DotDims.plain m k n) none A B)
        (broadcastInDim ⟨2, ![m, n]⟩ ![0, 1] g2 (broadcastInDim ⟨2, ![1, n]⟩ ![1] g1 v))
      = denseRows A B (shapeCast ⟨2, ![1, n]⟩ v h) := by
  funext i
  obtain ⟨a, b, rfl⟩ : ∃ (a : Fin m) (b : Fin n), i = ix2 a b := ⟨i 0, i 1, eq_ix2 i⟩
  rw [Cert.LibDenseLayer.dense_apply, denseRows_apply, shapeCast_a_1a_apply]

/-- An array clamped below at zero, entry by entry (zero kept as the all-zero f32 word). -/
def clamp0 {s : Shape} (X : s.Idx → EReal) : s.Idx → EReal :=
  fun i => max (X i) (Ideal.ofBits .f32 0x00000000#32)

/-- The host's maximum with the broadcast zero constant is that clamp. -/
theorem host_clamp0 {s : Shape} (X : FVec Ideal s .f32) (g : (⟨0, ![]⟩ : Shape).BroadcastsInDim s ![]) :
    maximumf X (broadcastInDim s ![] g (constant (F := Ideal) ⟨0, ![]⟩ .f32 0x00000000#32)) = clamp0 X := by
  funext i
  rfl

/-- A block's maximum with the splat of zero, after a cast to its own shape and before narrowing, is that clamp. -/
theorem block_clamp0 {s : Shape} (x : FVec Ideal s .f32) (h : s.ShapeCasts s) (ht : FTy.bf16.bits < FTy.f32.bits) :
    (truncf .bf16 (maximumf (shapeCast s x h) (broadcast s (Scalar.ofBits .f32 0x00000000#32 : Ideal .f32))) ht
        : FVec Ideal s .bf16) = clamp0 x := by
  rw [shapeCast_self]
  funext i
  rfl

/-- Clamping commutes with reading a sub-array: it is done entry by entry. -/
theorem clamp0_comp {s t : Shape} (X : s.Idx → EReal) (e : t.Idx → s.Idx) : (fun y => clamp0 X (e y)) = clamp0 (fun y => X (e y)) := rfl

end Cert.DenseRows

end
-- ==== Proof.Layer.lean ====
/-
  The three dense stages of a two-layer mean-aggregating graph network, on the extended reals.

  * `product X W` reads, at (a, b), Σ_c X(a, c) · W(c, b).
  * `combine X₁ X₂ Wl r Wr` reads, at (a, b), (Σ_c X₁(a, c) · Wl(c, b) + r(0, b)) + Σ_c X₂(a, c) · Wr(c, b): the
    aggregated neighbours through one matrix and a bias row, plus the node's own features through another.
  * `decode Z W₁ r₁ W₂ r₂` is a dense layer, clamped below at zero, followed by a second dense layer.
  Each is computed two ways — on a block of rows, by products into zero accumulators and a bias row repeated down the
  block; on the whole array, by the host's products and its broadcasts of a bias vector — and each entry of a result
  depends only on the matching row of the row operands, so a block of rows of the operands gives that block of the
  result (`denseRows_at`, `combine_at`, `decode_at`).
  A change of float format is the identity on the extended reals, so none shows.
-/
import Idealize.ShloMosaic.PureOps.Ideal.Laws
import Idealize.ShloMosaic.Lib.ValueIdx
import Idealize.ShloMosaic.Lib.ValueLayout
import Idealize.ShloMosaic.Lib.Pipeline.Value
import proofs.«122789_j29807073034304_1_alg».proof.Proof.LibDenseRows

noncomputable section

open scoped BigOperators

namespace Cert.Layer

open Idealize.ShloMosaic Idealize.ShloMosaic.ValueIdx Cert.DenseRows

/-- Row a of X against column b of W. -/
def product {m k n : ℕ} (X : (⟨2, ![m, k]⟩ : Shape).Idx → EReal) (W : (⟨2, ![k, n]⟩ : Shape).Idx → EReal) :
    (⟨2, ![m, n]⟩ : Shape).Idx → EReal :=
  fun i => ∑ c : Fin k, X (ix2 (i 0) c) * W (ix2 c (i 1))

/-- The aggregated rows through `Wl` plus the bias row, plus the nodes' own rows through `Wr`. -/
def combine {m k n : ℕ} (X1 X2 : (⟨2, ![m, k]⟩ : Shape).Idx → EReal) (Wl : (⟨2, ![k, n]⟩ : Shape).Idx → EReal)
    (r : (⟨2, ![1, n]⟩ : Shape).Idx → EReal) (Wr : (⟨2, ![k, n]⟩ : Shape).Idx → EReal) : (⟨2, ![m, n]⟩ : Shape).Idx → EReal :=
  fun i => denseRows X1 Wl r i + product X2 Wr i

/-- A dense layer clamped below at zero, then a second dense layer. -/
def decode {m k h n : ℕ} (Z : (⟨2, ![m, k]⟩ : Shape).Idx → EReal) (W1 : (⟨2, ![k, h]⟩ : Shape).Idx → EReal)
    (r1 : (⟨2, ![1, h]⟩ : Shape).Idx → EReal) (W2 : (⟨2, ![h, n]⟩ : Shape).Idx → EReal)
    (r2 : (⟨2, ![1, n]⟩ : Shape).Idx → EReal) : (⟨2, ![m, n]⟩ : Shape).Idx → EReal :=
  denseRows (clamp0 (denseRows Z W1 r1)) W2 r2

/-- Equal operands give equal results. -/
theorem combine_congr {m k n : ℕ} {x0 y0 x1 y1 : (⟨2, ![m, k]⟩ : Shape).Idx → EReal} {x2 y2 x4 y4 : (⟨2, ![k, n]⟩ : Shape).Idx → EReal}
    {x3 y3 : (⟨2, ![1, n]⟩ : Shape).Idx → EReal} (h0 : x0 = y0) (h1 : x1 = y1) (h2 : x2 = y2) (h3 : x3 = y3) (h4 : x4 = y4) :
    combine x0 x1 x2 x3 x4 = combine y0 y1 y2 y3 y4 := by
  subst h0 h1 h2 h3 h4
  rfl

theorem decode_congr {m k h n : ℕ} {x0 y0 : (⟨2, ![m, k]⟩ : Shape).Idx → EReal} {x1 y1 : (⟨2, ![k, h]⟩ : Shape).Idx → EReal}
    {x2 y2 : (⟨2, ![1, h]⟩ : Shape).Idx → EReal} {x3 y3 : (⟨2, ![h, n]⟩ : Shape).Idx → EReal}
    {x4 y4 : (⟨2, ![1, n]⟩ : Shape).Idx → EReal} (h0 : x0 = y0) (h1 : x1 = y1) (h2 : x2 = y2) (h3 : x3 = y3) (h4 : x4 = y4) :
    decode x0 x1 x2 x3 x4 = decode y0 y1 y2 y3 y4 := by
  subst h0 h1 h2 h3 h4
  rfl

/-- Two arrays of one shape laid side by side: equal pieces give equal results. -/
theorem concat_congr {α : Type} {S s : Shape} (a : Fin S.rank) (x x' y y' : s.Idx → α)
    (h : Shape.Concatenates (([⟨s, x⟩, ⟨s, y⟩] : List ((s : Shape) × (s.Idx → α))).map (·.1)) S a)
    (h' : Shape.Concatenates (([⟨s, x'⟩, ⟨s, y'⟩] : List ((s : Shape) × (s.Idx → α))).map (·.1)) S a)
    (ex : x = x') (ey : y = y') :
    concatenate S a [⟨s, x⟩, ⟨s, y⟩] h = concatenate S a [⟨s, x'⟩, ⟨s, y'⟩] h' := by
  subst ex ey
  rfl

/-! ## On a block of rows -/

theorem block_product {m k n : ℕ} {φ₁ φ₂ : FTy} (x0 : FVec Ideal ⟨2, ![m, k]⟩ φ₁) (x1 : FVec Ideal ⟨2, ![k, n]⟩ φ₂) :
    matmul (DotDims.plain m k n) none x0 x1 (constant ⟨2, ![m, n]⟩ .f32 0x00000000#32) = product x0 x1 := by
  funext i
  obtain ⟨a, b, rfl⟩ : ∃ (a : Fin m) (b : Fin n), i = ix2 a b := ⟨i 0, i 1, eq_ix2 i⟩
  rw [matmul_plain_zero_apply]
  rfl

theorem block_lin {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32) (h2 : (⟨2, ![1, n]⟩ : Shape).Broadcasts ⟨2, ![m, n]⟩) :
    addf (matmul (DotDims.plain m k n) none x0 x1 (constant ⟨2, ![m, n]⟩ .f32 0x00000000#32))
        (broadcastTo ⟨2, ![m, n]⟩ x2 h2) = denseRows x0 x1 x2 := by
  funext i
  obtain ⟨a, b, rfl⟩ : ∃ (a : Fin m) (b : Fin n), i = ix2 a b := ⟨i 0, i 1, eq_ix2 i⟩
  show matmul (DotDims.plain m k n) none x0 x1 (constant ⟨2, ![m, n]⟩ .f32 0x00000000#32) (ix2 a b)
      + broadcastTo ⟨2, ![m, n]⟩ x2 h2 (ix2 a b) = _
  rw [matmul_plain_zero_apply, broadcastTo_1b_ab_apply, denseRows_apply]

theorem block_combine {m k n : ℕ} {φ₁ φ₂ : FTy} (x0 x3 : FVec Ideal ⟨2, ![m, k]⟩ φ₁) (x6 x8 : FVec Ideal ⟨2, ![k, n]⟩ φ₂)
    (x11 : FVec Ideal ⟨2, ![1, n]⟩ .f32) (h2 : (⟨2, ![1, n]⟩ : Shape).Broadcasts ⟨2, ![m, n]⟩) :
    addf (addf (matmul (DotDims.plain m k n) none x0 x6 (constant ⟨2, ![m, n]⟩ .f32 0x00000000#32))
        (broadcastTo ⟨2, ![m, n]⟩ x11 h2))
      (matmul (DotDims.plain m k n) none x3 x8 (constant ⟨2, ![m, n]⟩ .f32 0x00000000#32)) = combine x0 x3 x6 x11 x8 := by
  rw [block_lin, block_product]
  rfl

theorem block_combine_relu {m k n : ℕ} {φ₁ φ₂ : FTy} (x0 x3 : FVec Ideal ⟨2, ![m, k]⟩ φ₁) (x6 x8 : FVec Ideal ⟨2, ![k, n]⟩ φ₂)
    (x11 : FVec Ideal ⟨2, ![1, n]⟩ .f32) (h2 : (⟨2, ![1, n]⟩ : Shape).Broadcasts ⟨2, ![m, n]⟩) :
    maximumf (addf (addf (matmul (DotDims.plain m k n) none x0 x6 (constant ⟨2, ![m, n]⟩ .f32 0x00000000#32))
        (broadcastTo ⟨2, ![m, n]⟩ x11 h2))
      (matmul (DotDims.plain m k n) none x3 x8 (constant ⟨2, ![m, n]⟩ .f32 0x00000000#32)))
      (broadcast ⟨2, ![m, n]⟩ (Scalar.ofBits .f32 0x00000000#32 : Ideal .f32)) = clamp0 (combine x0 x3 x6 x11 x8) := by
  rw [block_combine]
  rfl

theorem block_decode {m k h n : ℕ} {φ₁ φ₂ φ₃ : FTy} (x0 : FVec Ideal ⟨2, ![m, k]⟩ φ₁) (x3 : FVec Ideal ⟨2, ![k, h]⟩ φ₂)
    (x6 : FVec Ideal ⟨2, ![1, h]⟩ .f32) (x13 : FVec Ideal ⟨2, ![h, n]⟩ φ₃) (x16 : FVec Ideal ⟨2, ![1, n]⟩ .f32)
    (g1 : (⟨2, ![1, h]⟩ : Shape).Broadcasts ⟨2, ![m, h]⟩) (g2 : (⟨2, ![1, n]⟩ : Shape).Broadcasts ⟨2, ![m, n]⟩)
    (ht : FTy.bf16.bits < FTy.f32.bits) :
    addf (matmul (DotDims.plain m h n) none
          (truncf .bf16 (maximumf (addf (matmul (DotDims.plain m k h) none x0 x3 (constant ⟨2, ![m, h]⟩ .f32 0x00000000#32))
              (broadcastTo ⟨2, ![m, h]⟩ x6 g1))
            (broadcast ⟨2, ![m, h]⟩ (Scalar.ofBits .f32 0x00000000#32 : Ideal .f32))) ht)
          x13 (constant ⟨2, ![m, n]⟩ .f32 0x00000000#32))
        (broadcastTo ⟨2, ![m, n]⟩ x16 g2) = decode x0 x3 x6 x13 x16 := by
  rw [block_lin x0 x3 x6 g1]
  exact block_lin (φ₁ := .bf16) (clamp0 (denseRows x0 x3 x6)) x13 x16 g2

/-! ## On the whole array, by the host -/

theorem host_product {m k n : ℕ} (A : FVec Ideal ⟨2, ![m, k]⟩ .f32) (B : FVec Ideal ⟨2, ![k, n]⟩ .f32) :
    Host.dotGeneral (DotDims.plain m k n) none A B = product A B := by
  funext i
  obtain ⟨a, b, rfl⟩ : ∃ (a : Fin m) (b : Fin n), i = ix2 a b := ⟨i 0, i 1, eq_ix2 i⟩
  rw [hostDotGeneral_plain_apply]
  rfl

theorem host_combine {m k n : ℕ} (A1 A2 : FVec Ideal ⟨2, ![m, k]⟩ .f32) (Wl Wr : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (h : (⟨1, ![n]⟩ : Shape).ShapeCasts ⟨2, ![1, n]⟩) :
    addf (addf (Host.dotGeneral (DotDims.plain m k n) none A1 Wl)
        (broadcastInDim ⟨2, ![m, n]⟩ ![0, 1] g2 (broadcastInDim ⟨2, ![1, n]⟩ ![1] g1 v)))
      (Host.dotGeneral (DotDims.plain m k n) none A2 Wr) = combine A1 A2 Wl (shapeCast ⟨2, ![1, n]⟩ v h) Wr := by
  rw [host_dense A1 Wl v g1 g2 h, host_product]
  rfl

theorem host_decode {m k h n : ℕ} (Z : FVec Ideal ⟨2, ![m, k]⟩ .f32) (W1 : FVec Ideal ⟨2, ![k, h]⟩ .f32)
    (v1 : FVec Ideal ⟨1, ![h]⟩ .f32) (W2 : FVec Ideal ⟨2, ![h, n]⟩ .f32) (v2 : FVec Ideal ⟨1, ![n]⟩ .f32)
    (g1 : (⟨1, ![h]⟩ : Shape).BroadcastsInDim ⟨2, ![1, h]⟩ ![1])
    (g2 : (⟨2, ![1, h]⟩ : Shape).BroadcastsInDim ⟨2, ![m, h]⟩ ![0, 1])
    (g3 : (⟨1, ![n]⟩ : Shape).BroadcastsInDim ⟨2, ![1, n]⟩ ![1])
    (g4 : (⟨2, ![1, n]⟩ : Shape).BroadcastsInDim ⟨2, ![m, n]⟩ ![0, 1])
    (g0 : (⟨0, ![]⟩ : Shape).BroadcastsInDim ⟨2, ![m, h]⟩ ![])
    (h1 : (⟨1, ![h]⟩ : Shape).ShapeCasts ⟨2, ![1, h]⟩) (h2 : (⟨1, ![n]⟩ : Shape).ShapeCasts ⟨2, ![1, n]⟩) :
    addf (Host.dotGeneral (DotDims.plain m h n) none
          (maximumf (addf (Host.dotGeneral (DotDims.plain m k h) none Z W1)
              (broadcastInDim ⟨2, ![m, h]⟩ ![0, 1] g2 (broadcastInDim ⟨2, ![1, h]⟩ ![1] g1 v1)))
            (broadcastInDim ⟨2, ![m, h]⟩ ![] g0 (constant (F := Ideal) ⟨0, ![]⟩ .f32 0x00000000#32)))
          W2)
        (broadcastInDim ⟨2, ![m, n]⟩ ![0, 1] g4 (broadcastInDim ⟨2, ![1, n]⟩ ![1] g3 v2))
      = decode Z W1 (shapeCast ⟨2, ![1, h]⟩ v1 h1) W2 (shapeCast ⟨2, ![1, n]⟩ v2 h2) := by
  rw [host_dense Z W1 v1 g1 g2 h1, host_clamp0]
  exact host_dense (clamp0 (denseRows Z W1 (shapeCast ⟨2, ![1, h]⟩ v1 h1))) W2 v2 g3 g4 h2

/-! ## A block of rows of the operands gives that block of the result -/

theorem product_at {m M k n : ℕ} (x0 : (⟨2, ![m, k]⟩ : Shape).Idx → EReal) (X : (⟨2, ![M, k]⟩ : Shape).Idx → EReal)
    (x1 W : (⟨2, ![k, n]⟩ : Shape).Idx → EReal) (j : (⟨2, ![m, n]⟩ : Shape).Idx) (i : (⟨2, ![M, n]⟩ : Shape).Idx)
    (h0 : ∀ c : Fin k, x0 (ix2 (j 0) c) = X (ix2 (i 0) c)) (h1 : x1 = W) (hi : j 1 = i 1) :
    product x0 x1 j = product X W i := by
  subst h1
  unfold product
  rw [hi]
  exact Finset.sum_congr rfl fun c _ => by rw [h0 c]

theorem denseRows_at {m M k n : ℕ} (x0 : (⟨2, ![m, k]⟩ : Shape).Idx → EReal) (X : (⟨2, ![M, k]⟩ : Shape).Idx → EReal)
    (x1 W : (⟨2, ![k, n]⟩ : Shape).Idx → EReal) (x2 r : (⟨2, ![1, n]⟩ : Shape).Idx → EReal)
    (j : (⟨2, ![m, n]⟩ : Shape).Idx) (i : (⟨2, ![M, n]⟩ : Shape).Idx)
    (h0 : ∀ c : Fin k, x0 (ix2 (j 0) c) = X (ix2 (i 0) c)) (h1 : x1 = W) (h2 : x2 = r) (hi : j 1 = i 1) :
    denseRows x0 x1 x2 j = denseRows X W r i := by
  subst h1 h2
  unfold denseRows
  rw [hi]
  exact congrArg (· + _) (Finset.sum_congr rfl fun c _ => by rw [h0 c])

theorem combine_at {m M k n : ℕ} (x0 x3 : (⟨2, ![m, k]⟩ : Shape).Idx → EReal) (X1 X2 : (⟨2, ![M, k]⟩ : Shape).Idx → EReal)
    (x6 Wl x8 Wr : (⟨2, ![k, n]⟩ : Shape).Idx → EReal) (x11 r : (⟨2, ![1, n]⟩ : Shape).Idx → EReal)
    (j : (⟨2, ![m, n]⟩ : Shape).Idx) (i : (⟨2, ![M, n]⟩ : Shape).Idx)
    (h0 : ∀ c : Fin k, x0 (ix2 (j 0) c) = X1 (ix2 (i 0) c)) (h3 : ∀ c : Fin k, x3 (ix2 (j 0) c) = X2 (ix2 (i 0) c))
    (h6 : x6 = Wl) (h8 : x8 = Wr) (h11 : x11 = r) (hi : j 1 = i 1) :
    combine x0 x3 x6 x11 x8 j = combine X1 X2 Wl r Wr i := by
  unfold combine
  rw [denseRows_at x0 X1 x6 Wl x11 r j i h0 h6 h11 hi, product_at x3 X2 x8 Wr j i h3 h8 hi]

theorem clampCombine_at {m M k n : ℕ} (x0 x3 : (⟨2, ![m, k]⟩ : Shape).Idx → EReal) (X1 X2 : (⟨2, ![M, k]⟩ : Shape).Idx → EReal)
    (x6 Wl x8 Wr : (⟨2, ![k, n]⟩ : Shape).Idx → EReal) (x11 r : (⟨2, ![1, n]⟩ : Shape).Idx → EReal)
    (j : (⟨2, ![m, n]⟩ : Shape).Idx) (i : (⟨2, ![M, n]⟩ : Shape).Idx)
    (h0 : ∀ c : Fin k, x0 (ix2 (j 0) c) = X1 (ix2 (i 0) c)) (h3 : ∀ c : Fin k, x3 (ix2 (j 0) c) = X2 (ix2 (i 0) c))
    (h6 : x6 = Wl) (h8 : x8 = Wr) (h11 : x11 = r) (hi : j 1 = i 1) :
    clamp0 (combine x0 x3 x6 x11 x8) j = clamp0 (combine X1 X2 Wl r Wr) i := by
  show max (combine x0 x3 x6 x11 x8 j) _ = max (combine X1 X2 Wl r Wr i) _
  rw [combine_at x0 x3 X1 X2 x6 Wl x8 Wr x11 r j i h0 h3 h6 h8 h11 hi]

theorem decode_at {m M k h n : ℕ} (x0 : (⟨2, ![m, k]⟩ : Shape).Idx → EReal) (Z : (⟨2, ![M, k]⟩ : Shape).Idx → EReal)
    (x3 W1 : (⟨2, ![k, h]⟩ : Shape).Idx → EReal) (x6 r1 : (⟨2, ![1, h]⟩ : Shape).Idx → EReal)
    (x13 W2 : (⟨2, ![h, n]⟩ : Shape).Idx → EReal) (x16 r2 : (⟨2, ![1, n]⟩ : Shape).Idx → EReal)
    (j : (⟨2, ![m, n]⟩ : Shape).Idx) (i : (⟨2, ![M, n]⟩ : Shape).Idx)
    (h0 : ∀ c : Fin k, x0 (ix2 (j 0) c) = Z (ix2 (i 0) c)) (h3 : x3 = W1) (h6 : x6 = r1) (h13 : x13 = W2) (h16 : x16 = r2)
    (hi : j 1 = i 1) :
    decode x0 x3 x6 x13 x16 j = decode Z W1 r1 W2 r2 i := by
  unfold decode
  refine denseRows_at _ _ x13 W2 x16 r2 j i (fun c => ?_) h13 h16 hi
  show max (denseRows x0 x3 x6 (ix2 (j 0) c)) _ = max (denseRows Z W1 r1 (ix2 (i 0) c)) _
  rw [denseRows_at x0 Z x3 W1 x6 r1 (ix2 (j 0) c) (ix2 (i 0) c) h0 h3 h6 rfl]

end Cert.Layer

end
-- ==== Proof.R0.lean ====
/-
  The first input projection: the user features through a dense layer.

  The grid's ten points each take a block of 10000 rows of the [100000, 3] features, the whole [3, 64] weights and the
  [1, 64] bias row, and write the block's dense layer Σ_c x(a, c) · w(c, b) + bias(0, b) back to the same rows of the
  [100000, 64] result. An entry of the dense layer depends only on its own row of the features, so the block written at
  point t is rows 10000·t … 10000·t + 9999 of the dense layer of the whole arrays, and the ten blocks tile the result.
-/
import proofs.«122789_j29807073034304_1_alg».proof.Proof.Gen.KernelIdeal.Frame
import proofs.«122789_j29807073034304_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen Cert.DenseRows Cert.Layer

variable (V : (c : Dev nD) → (b : Ref sig .tc) → Buf (Elt Ideal) ((c : Thread nD τ).loc b))

theorem hz : (![0, 0] : Fin 2 → Nat) = fun _ => 0 := funext fun a => by fin_cases a <;> rfl

/-- The body's stored value is the dense layer of its loaded blocks. -/
theorem pay (v0 : Vec Ideal S10000x3 .f32) (v2 : Vec Ideal S3x64 .f32) (v5 : Vec Ideal S1x64 .f32) :
    k0_pay1 (F := Ideal) v0 v2 v5 = denseRows v0 v2 v5 := by
  unfold k0_pay1
  simp only [shapeCast_self]
  exact block_lin v0 v2 v5 _

/-- The printed index maps over the grid: a row-tiled window moves with the output's row block, a whole-array window
    stays at block (0, 0), and the output's row block at point t is block t. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) = t.val :=
  (by decide +kernel : ∀ t : Fin grid0.N, _)

/-- What point t writes back is block t of the stage's whole-array function of the arrays as the region finds them. -/
theorem flushed (c : Dev nD) (t : Fin cfg0.N) :
    (dat0 V c).flushed 3 t = ((cfg0.win 3).blk t).view.read (Elt Ideal) (denseRows (V c main_arg0) (V c main_arg6) (V c main_v0)) := by
  show (cfg0.win 3).cut (grid0.coords t) ((dat0 V c).after 3 t) = _
  rw [after0_3]
  unfold out0_3
  rw [View.canon_unit_zero hz]
  simp only [View.ld_unit_zero (S := S10000x3) hz, View.ld_unit_zero (S := S3x64) hz, View.ld_unit_zero (S := S1x64) hz]
  rw [pay]
  obtain ⟨e0, e1, e2, e3, e4, e5, e6, e7⟩ := idx_facts t
  funext j
  show denseRows (iblk0 V c 0 t) (iblk0 V c 1 t) (iblk0 V c 2 t) j = (denseRows (V c main_arg0) (V c main_arg6) (V c main_v0)) (((cfg0.win 3).blk t).view.emb j)
  refine denseRows_at _ _ _ _ _ _  j _ (fun cc => ?_) ?_ ?_ ?_
  · show V c main_arg0 (((cfg0.win 0).blk t).view.emb (ValueIdx.ix2 (j 0) cc)) = V c main_arg0 (ValueIdx.ix2 ((((cfg0.win 3).blk t).view.emb j) 0) cc)
    congr 1; funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 3 + 1 * cc.val = cc.val; omega
  · funext y
    show V c main_arg6 (((cfg0.win 1).blk t).view.emb y) = V c main_arg6 y
    congr 1; funext a; apply Fin.ext
    match a with
    | ⟨0, _⟩ => show win0_1.index t (0 : Fin 2) * 3 + 1 * (y 0).val = (y 0).val; omega
    | ⟨1, _⟩ => show win0_1.index t (1 : Fin 2) * 64 + 1 * (y 1).val = (y 1).val; omega
  · funext y
    show V c main_v0 (((cfg0.win 2).blk t).view.emb y) = V c main_v0 y
    congr 1; funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  · apply Fin.ext
    show (j 1).val = win0_3.index t (1 : Fin 2) * 64 + 1 * (j 1).val
    omega

/-- An index of the output array lies in point t's block iff each coordinate lies in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1).slice (win0_3.rect t)).set ↔ _
  rw [View.set_slice_whole, Rect.mem_set_unit]
  exact Iff.rfl

/-- The row blocks tile the output array, so it ends holding the stage's function of the arrays as the region finds them. -/
theorem final (c : Dev nD) : (dat0 V c).arrAt 3 cfg0.N = (denseRows (V c main_arg0) (V c main_arg6) (V c main_v0)) :=
  (dat0 V c).arrAt_eq_of_cover 3 _ (fun t _ => flushed V c t) fun i => by
    have hN : grid0.N = 10 := N_0
    have hi0 : (i 0).val < 100000 := (i 0).isLt
    have hi1 : (i 1).val < 64 := (i 1).isLt
    have ht : (i 0).val / 10000 < cfg0.N := by show _ < grid0.N; omega
    refine ⟨⟨(i 0).val / 10000, ht⟩, flush0_3 _, ?_⟩
    rw [mem_blk]
    obtain ⟨e0, e1, e2, e3, e4, e5, e6, e7⟩ := idx_facts ⟨(i 0).val / 10000, ht⟩
    intro a
    match a with
    | ⟨0, _⟩ =>
      show win0_3.index ⟨(i 0).val / 10000, ht⟩ (0 : Fin 2) * 10000 ≤ (i 0).val ∧ (i 0).val < win0_3.index ⟨(i 0).val / 10000, ht⟩ (0 : Fin 2) * 10000 + 10000
      rw [e7]
      show (i 0).val / 10000 * 10000 ≤ (i 0).val ∧ (i 0).val < (i 0).val / 10000 * 10000 + 10000
      omega
    | ⟨1, _⟩ =>
      show win0_3.index ⟨(i 0).val / 10000, ht⟩ (1 : Fin 2) * 64 ≤ (i 1).val ∧ (i 1).val < win0_3.index ⟨(i 0).val / 10000, ht⟩ (1 : Fin 2) * 64 + 64
      rw [e6]
      omega

end Cert.KernelIdeal.R0

end
-- ==== Proof.R1.lean ====
/-
  The second input projection: the book features through a dense layer.

  The grid's ten points each take a block of 5000 rows of the [50000, 384] features, the whole [384, 64] weights and the
  [1, 64] bias row, and write the block's dense layer Σ_c x(a, c) · w(c, b) + bias(0, b) back to the same rows of the
  [50000, 64] result. An entry of the dense layer depends only on its own row of the features, so the block written at
  point t is rows 5000·t … 5000·t + 4999 of the dense layer of the whole arrays, and the ten blocks tile the result.
-/
import proofs.«122789_j29807073034304_1_alg».proof.Proof.Gen.KernelIdeal.Frame
import proofs.«122789_j29807073034304_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen Cert.DenseRows Cert.Layer

variable (V : (c : Dev nD) → (b : Ref sig .tc) → Buf (Elt Ideal) ((c : Thread nD τ).loc b))

theorem hz : (![0, 0] : Fin 2 → Nat) = fun _ => 0 := funext fun a => by fin_cases a <;> rfl

/-- The body's stored value is the dense layer of its loaded blocks. -/
theorem pay (v0 : Vec Ideal S5000x384 .f32) (v2 : Vec Ideal S384x64 .f32) (v5 : Vec Ideal S1x64 .f32) :
    k1_pay1 (F := Ideal) v0 v2 v5 = denseRows v0 v2 v5 := by
  unfold k1_pay1
  simp only [shapeCast_self]
  exact block_lin v0 v2 v5 _

/-- The printed index maps over the grid: a row-tiled window moves with the output's row block, a whole-array window
    stays at block (0, 0), and the output's row block at point t is block t. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) = t.val :=
  (by decide +kernel : ∀ t : Fin grid1.N, _)

/-- What point t writes back is block t of the stage's whole-array function of the arrays as the region finds them. -/
theorem flushed (c : Dev nD) (t : Fin cfg1.N) :
    (dat1 V c).flushed 3 t = ((cfg1.win 3).blk t).view.read (Elt Ideal) (denseRows (V c main_arg1) (V c main_arg8) (V c main_v2)) := by
  show (cfg1.win 3).cut (grid1.coords t) ((dat1 V c).after 3 t) = _
  rw [after1_3]
  unfold out1_3
  rw [View.canon_unit_zero hz]
  simp only [View.ld_unit_zero (S := S5000x384) hz, View.ld_unit_zero (S := S384x64) hz, View.ld_unit_zero (S := S1x64) hz]
  rw [pay]
  obtain ⟨e0, e1, e2, e3, e4, e5, e6, e7⟩ := idx_facts t
  funext j
  show denseRows (iblk1 V c 0 t) (iblk1 V c 1 t) (iblk1 V c 2 t) j = (denseRows (V c main_arg1) (V c main_arg8) (V c main_v2)) (((cfg1.win 3).blk t).view.emb j)
  refine denseRows_at _ _ _ _ _ _  j _ (fun cc => ?_) ?_ ?_ ?_
  · show V c main_arg1 (((cfg1.win 0).blk t).view.emb (ValueIdx.ix2 (j 0) cc)) = V c main_arg1 (ValueIdx.ix2 ((((cfg1.win 3).blk t).view.emb j) 0) cc)
    congr 1; funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 384 + 1 * cc.val = cc.val; omega
  · funext y
    show V c main_arg8 (((cfg1.win 1).blk t).view.emb y) = V c main_arg8 y
    congr 1; funext a; apply Fin.ext
    match a with
    | ⟨0, _⟩ => show win1_1.index t (0 : Fin 2) * 384 + 1 * (y 0).val = (y 0).val; omega
    | ⟨1, _⟩ => show win1_1.index t (1 : Fin 2) * 64 + 1 * (y 1).val = (y 1).val; omega
  · funext y
    show V c main_v2 (((cfg1.win 2).blk t).view.emb y) = V c main_v2 y
    congr 1; funext a; apply Fin.ext
    match a with
    | ⟨0, _⟩ => show win1_2.index t (0 : Fin 2) * 1 + 1 * (y 0).val = (y 0).val; omega
    | ⟨1, _⟩ => show win1_2.index t (1 : Fin 2) * 64 + 1 * (y 1).val = (y 1).val; omega
  · apply Fin.ext
    show (j 1).val = win1_3.index t (1 : Fin 2) * 64 + 1 * (j 1).val
    omega

/-- An index of the output array lies in point t's block iff each coordinate lies in the block's range. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v3).slice (win1_3.rect t)).set ↔ _
  rw [View.set_slice_whole, Rect.mem_set_unit]
  exact Iff.rfl

/-- The row blocks tile the output array, so it ends holding the stage's function of the arrays as the region finds them. -/
theorem final (c : Dev nD) : (dat1 V c).arrAt 3 cfg1.N = (denseRows (V c main_arg1) (V c main_arg8) (V c main_v2)) :=
  (dat1 V c).arrAt_eq_of_cover 3 _ (fun t _ => flushed V c t) fun i => by
    have hN : grid1.N = 10 := N_1
    have hi0 : (i 0).val < 50000 := (i 0).isLt
    have hi1 : (i 1).val < 64 := (i 1).isLt
    have ht : (i 0).val / 5000 < cfg1.N := by show _ < grid1.N; omega
    refine ⟨⟨(i 0).val / 5000, ht⟩, flush1_3 _, ?_⟩
    rw [mem_blk]
    obtain ⟨e0, e1, e2, e3, e4, e5, e6, e7⟩ := idx_facts ⟨(i 0).val / 5000, ht⟩
    intro a
    match a with
    | ⟨0, _⟩ =>
      show win1_3.index ⟨(i 0).val / 5000, ht⟩ (0 : Fin 2) * 5000 ≤ (i 0).val ∧ (i 0).val < win1_3.index ⟨(i 0).val / 5000, ht⟩ (0 : Fin 2) * 5000 + 5000
      rw [e7]
      show (i 0).val / 5000 * 5000 ≤ (i 0).val ∧ (i 0).val < (i 0).val / 5000 * 5000 + 5000
      omega
    | ⟨1, _⟩ =>
      show win1_3.index ⟨(i 0).val / 5000, ht⟩ (1 : Fin 2) * 64 ≤ (i 1).val ∧ (i 1).val < win1_3.index ⟨(i 0).val / 5000, ht⟩ (1 : Fin 2) * 64 + 64
      rw [e6]
      omega

end Cert.KernelIdeal.R1

end
-- ==== Proof.R2.lean ====
/-
  The first layer's combine step for the book nodes.

  The grid's five points each take a block of 10000 rows of the aggregated neighbour means and of the nodes' own features,
  the two whole [64, 64] weights and the [1, 64] bias row, and write back, to the same rows of the [50000, 64] result,
  (Σ_c mean(a, c) · wl(c, b) + bias(0, b)) + Σ_c own(a, c) · wr(c, b), clamped below at zero. An entry depends only on its own row of the
  two row operands, so the block written at point t is rows 10000·t … 10000·t + 9999 of that function of the whole arrays,
  and the blocks tile the result.
-/
import proofs.«122789_j29807073034304_1_alg».proof.Proof.Gen.KernelIdeal.Frame
import proofs.«122789_j29807073034304_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R2

open Cert.KernelIdeal Cert.KernelIdeal.Gen Cert.DenseRows Cert.Layer

variable (V : (c : Dev nD) → (b : Ref sig .tc) → Buf (Elt Ideal) ((c : Thread nD τ).loc b))

theorem hz : (![0, 0] : Fin 2 → Nat) = fun _ => 0 := funext fun a => by fin_cases a <;> rfl

/-- The body's stored value is the clamped combine of its loaded blocks. -/
theorem pay (v0 v3 : Vec Ideal S10000x64 .f32) (v6 v8 : Vec Ideal S64x64 .f32) (v11 : Vec Ideal S1x64 .f32) :
    k2_pay1 (F := Ideal) v0 v3 v6 v8 v11 = clamp0 (combine v0 v3 v6 v11 v8) := by
  unfold k2_pay1
  simp only [shapeCast_self]
  exact block_combine_relu v0 v3 v6 v8 v11 _

/-- The printed index maps over the grid: a row-tiled window moves with the output's row block, a whole-array window
    stays at block (0, 0), and the output's row block at point t is block t. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (1 : Fin 2) = 0
    ∧ win2_5.index t (0 : Fin 2) = t.val :=
  (by decide +kernel : ∀ t : Fin grid2.N, _)

/-- What point t writes back is block t of the stage's whole-array function of the arrays as the region finds them. -/
theorem flushed (c : Dev nD) (t : Fin cfg2.N) :
    (dat2 V c).flushed 5 t = ((cfg2.win 5).blk t).view.read (Elt Ideal) (clamp0 (combine (V c main_v31) (V c main_v3) (V c main_arg10) (V c main_v45) (V c main_arg12))) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7, e8, e9, e10, e11⟩ := idx_facts t
  funext j
  show clamp0 (combine (iblk2 V c 0 t) (iblk2 V c 1 t) (iblk2 V c 2 t) (iblk2 V c 3 t) (iblk2 V c 4 t)) j = (clamp0 (combine (V c main_v31) (V c main_v3) (V c main_arg10) (V c main_v45) (V c main_arg12))) (((cfg2.win 5).blk t).view.emb j)
  refine clampCombine_at _ _ _ _ _ _ _ _ _ _ j _ (fun cc => ?_) (fun cc => ?_) ?_ ?_ ?_ ?_
  · show V c main_v31 (((cfg2.win 0).blk t).view.emb (ValueIdx.ix2 (j 0) cc)) = V c main_v31 (ValueIdx.ix2 ((((cfg2.win 5).blk t).view.emb j) 0) cc)
    congr 1; funext a; apply Fin.ext
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 64 + 1 * cc.val = cc.val; omega
  · show V c main_v3 (((cfg2.win 1).blk t).view.emb (ValueIdx.ix2 (j 0) cc)) = V c main_v3 (ValueIdx.ix2 ((((cfg2.win 5).blk t).view.emb j) 0) cc)
    congr 1; funext a; apply Fin.ext
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 64 + 1 * cc.val = cc.val; omega
  · funext y
    show V c main_arg10 (((cfg2.win 2).blk t).view.emb y) = V c main_arg10 y
    congr 1; funext a; apply Fin.ext
    match a with
    | ⟨0, _⟩ => show win2_2.index t (0 : Fin 2) * 64 + 1 * (y 0).val = (y 0).val; omega
    | ⟨1, _⟩ => show win2_2.index t (1 : Fin 2) * 64 + 1 * (y 1).val = (y 1).val; omega
  · funext y
    show V c main_arg12 (((cfg2.win 4).blk t).view.emb y) = V c main_arg12 y
    congr 1; funext a; apply Fin.ext
    match a with
    | ⟨0, _⟩ => show win2_4.index t (0 : Fin 2) * 64 + 1 * (y 0).val = (y 0).val; omega
    | ⟨1, _⟩ => show win2_4.index t (1 : Fin 2) * 64 + 1 * (y 1).val = (y 1).val; omega
  · funext y
    show V c main_v45 (((cfg2.win 3).blk t).view.emb y) = V c main_v45 y
    congr 1; funext a; apply Fin.ext
    match a with
    | ⟨0, _⟩ => show win2_3.index t (0 : Fin 2) * 1 + 1 * (y 0).val = (y 0).val; omega
    | ⟨1, _⟩ => show win2_3.index t (1 : Fin 2) * 64 + 1 * (y 1).val = (y 1).val; omega
  · apply Fin.ext
    show (j 1).val = win2_5.index t (1 : Fin 2) * 64 + 1 * (j 1).val
    omega

/-- An index of the output array lies in point t's block iff each coordinate lies in the block's range. -/
theorem mem_blk (t : Fin cfg2.N) (i : S50000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v46).slice (win2_5.rect t)).set ↔ _
  rw [View.set_slice_whole, Rect.mem_set_unit]
  exact Iff.rfl

/-- The row blocks tile the output array, so it ends holding the stage's function of the arrays as the region finds them. -/
theorem final (c : Dev nD) : (dat2 V c).arrAt 5 cfg2.N = (clamp0 (combine (V c main_v31) (V c main_v3) (V c main_arg10) (V c main_v45) (V c main_arg12))) :=
  (dat2 V c).arrAt_eq_of_cover 5 _ (fun t _ => flushed V c t) fun i => by
    have hN : grid2.N = 5 := N_2
    have hi0 : (i 0).val < 50000 := (i 0).isLt
    have hi1 : (i 1).val < 64 := (i 1).isLt
    have ht : (i 0).val / 10000 < cfg2.N := by show _ < grid2.N; omega
    refine ⟨⟨(i 0).val / 10000, ht⟩, flush2_5 _, ?_⟩
    rw [mem_blk]
    obtain ⟨e0, e1, e2, e3, e4, e5, e6, e7, e8, e9, e10, e11⟩ := idx_facts ⟨(i 0).val / 10000, ht⟩
    intro a
    match a with
    | ⟨0, _⟩ =>
      show win2_5.index ⟨(i 0).val / 10000, ht⟩ (0 : Fin 2) * 10000 ≤ (i 0).val ∧ (i 0).val < win2_5.index ⟨(i 0).val / 10000, ht⟩ (0 : Fin 2) * 10000 + 10000
      rw [e11]
      show (i 0).val / 10000 * 10000 ≤ (i 0).val ∧ (i 0).val < (i 0).val / 10000 * 10000 + 10000
      omega
    | ⟨1, _⟩ =>
      show win2_5.index ⟨(i 0).val / 10000, ht⟩ (1 : Fin 2) * 64 ≤ (i 1).val ∧ (i 1).val < win2_5.index ⟨(i 0).val / 10000, ht⟩ (1 : Fin 2) * 64 + 64
      rw [e10]
      omega

end Cert.KernelIdeal.R2

end
-- ==== Proof.R3.lean ====
/-
  The first layer's combine step for the user nodes.

  The grid's ten points each take a block of 10000 rows of the aggregated neighbour means and of the nodes' own features,
  the two whole [64, 64] weights and the [1, 64] bias row, and write back, to the same rows of the [100000, 64] result,
  (Σ_c mean(a, c) · wl(c, b) + bias(0, b)) + Σ_c own(a, c) · wr(c, b), clamped below at zero. An entry depends only on its own row of the
  two row operands, so the block written at point t is rows 10000·t … 10000·t + 9999 of that function of the whole arrays,
  and the blocks tile the result.
-/
import proofs.«122789_j29807073034304_1_alg».proof.Proof.Gen.KernelIdeal.Frame
import proofs.«122789_j29807073034304_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R3

open Cert.KernelIdeal Cert.KernelIdeal.Gen Cert.DenseRows Cert.Layer

variable (V : (c : Dev nD) → (b : Ref sig .tc) → Buf (Elt Ideal) ((c : Thread nD τ).loc b))

theorem hz : (![0, 0] : Fin 2 → Nat) = fun _ => 0 := funext fun a => by fin_cases a <;> rfl

/-- The body's stored value is the clamped combine of its loaded blocks. -/
theorem pay (v0 v3 : Vec Ideal S10000x64 .f32) (v6 v8 : Vec Ideal S64x64 .f32) (v11 : Vec Ideal S1x64 .f32) :
    k3_pay1 (F := Ideal) v0 v3 v6 v8 v11 = clamp0 (combine v0 v3 v6 v11 v8) := by
  unfold k3_pay1
  simp only [shapeCast_self]
  exact block_combine_relu v0 v3 v6 v8 v11 _

/-- The printed index maps over the grid: a row-tiled window moves with the output's row block, a whole-array window
    stays at block (0, 0), and the output's row block at point t is block t. -/
theorem idx_facts : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (1 : Fin 2) = 0
    ∧ win3_5.index t (0 : Fin 2) = t.val :=
  (by decide +kernel : ∀ t : Fin grid3.N, _)

/-- What point t writes back is block t of the stage's whole-array function of the arrays as the region finds them. -/
theorem flushed (c : Dev nD) (t : Fin cfg3.N) :
    (dat3 V c).flushed 5 t = ((cfg3.win 5).blk t).view.read (Elt Ideal) (clamp0 (combine (V c main_v44) (V c main_v1) (V c main_arg13) (V c main_v47) (V c main_arg15))) := by
  show (cfg3.win 5).cut (grid3.coords t) ((dat3 V c).after 5 t) = _
  rw [after3_5]
  unfold out3_5
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7, e8, e9, e10, e11⟩ := idx_facts t
  funext j
  show clamp0 (combine (iblk3 V c 0 t) (iblk3 V c 1 t) (iblk3 V c 2 t) (iblk3 V c 3 t) (iblk3 V c 4 t)) j = (clamp0 (combine (V c main_v44) (V c main_v1) (V c main_arg13) (V c main_v47) (V c main_arg15))) (((cfg3.win 5).blk t).view.emb j)
  refine clampCombine_at _ _ _ _ _ _ _ _ _ _ j _ (fun cc => ?_) (fun cc => ?_) ?_ ?_ ?_ ?_
  · show V c main_v44 (((cfg3.win 0).blk t).view.emb (ValueIdx.ix2 (j 0) cc)) = V c main_v44 (ValueIdx.ix2 ((((cfg3.win 5).blk t).view.emb j) 0) cc)
    congr 1; funext a; apply Fin.ext
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 64 + 1 * cc.val = cc.val; omega
  · show V c main_v1 (((cfg3.win 1).blk t).view.emb (ValueIdx.ix2 (j 0) cc)) = V c main_v1 (ValueIdx.ix2 ((((cfg3.win 5).blk t).view.emb j) 0) cc)
    congr 1; funext a; apply Fin.ext
    match a with
    | ⟨0, _⟩ => show win3_1.index t (0 : Fin 2) * 10000 + 1 * (j 0).val = win3_5.index t (0 : Fin 2) * 10000 + 1 * (j 0).val; omega
    | ⟨1, _⟩ => show win3_1.index t (1 : Fin 2) * 64 + 1 * cc.val = cc.val; omega
  · funext y
    show V c main_arg13 (((cfg3.win 2).blk t).view.emb y) = V c main_arg13 y
    congr 1; funext a; apply Fin.ext
    match a with
    | ⟨0, _⟩ => show win3_2.index t (0 : Fin 2) * 64 + 1 * (y 0).val = (y 0).val; omega
    | ⟨1, _⟩ => show win3_2.index t (1 : Fin 2) * 64 + 1 * (y 1).val = (y 1).val; omega
  · funext y
    show V c main_arg15 (((cfg3.win 4).blk t).view.emb y) = V c main_arg15 y
    congr 1; funext a; apply Fin.ext
    match a with
    | ⟨0, _⟩ => show win3_4.index t (0 : Fin 2) * 64 + 1 * (y 0).val = (y 0).val; omega
    | ⟨1, _⟩ => show win3_4.index t (1 : Fin 2) * 64 + 1 * (y 1).val = (y 1).val; omega
  · funext y
    show V c main_v47 (((cfg3.win 3).blk t).view.emb y) = V c main_v47 y
    congr 1; funext a; apply Fin.ext
    match a with
    | ⟨0, _⟩ => show win3_3.index t (0 : Fin 2) * 1 + 1 * (y 0).val = (y 0).val; omega
    | ⟨1, _⟩ => show win3_3.index t (1 : Fin 2) * 64 + 1 * (y 1).val = (y 1).val; omega
  · apply Fin.ext
    show (j 1).val = win3_5.index t (1 : Fin 2) * 64 + 1 * (j 1).val
    omega

/-- An index of the output array lies in point t's block iff each coordinate lies in the block's range. -/
theorem mem_blk (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v48).slice (win3_5.rect t)).set ↔ _
  rw [View.set_slice_whole, Rect.mem_set_unit]
  exact Iff.rfl

/-- The row blocks tile the output array, so it ends holding the stage's function of the arrays as the region finds them. -/
theorem final (c : Dev nD) : (dat3 V c).arrAt 5 cfg3.N = (clamp0 (combine (V c main_v44) (V c main_v1) (V c main_arg13) (V c main_v47) (V c main_arg15))) :=
  (dat3 V c).arrAt_eq_of_cover 5 _ (fun t _ => flushed V c t) fun i => by
    have hN : grid3.N = 10 := N_3
    have hi0 : (i 0).val < 100000 := (i 0).isLt
    have hi1 : (i 1).val < 64 := (i 1).isLt
    have ht : (i 0).val / 10000 < cfg3.N := by show _ < grid3.N; omega
    refine ⟨⟨(i 0).val / 10000, ht⟩, flush3_5 _, ?_⟩
    rw [mem_blk]
    obtain ⟨e0, e1, e2, e3, e4, e5, e6, e7, e8, e9, e10, e11⟩ := idx_facts ⟨(i 0).val / 10000, ht⟩
    intro a
    match a with
    | ⟨0, _⟩ =>
      show win3_5.index ⟨(i 0).val / 10000, ht⟩ (0 : Fin 2) * 10000 ≤ (i 0).val ∧ (i 0).val < win3_5.index ⟨(i 0).val / 10000, ht⟩ (0 : Fin 2) * 10000 + 10000
      rw [e11]
      show (i 0).val / 10000 * 10000 ≤ (i 0).val ∧ (i 0).val < (i 0).val / 10000 * 10000 + 10000
      omega
    | ⟨1, _⟩ =>
      show win3_5.index ⟨(i 0).val / 10000, ht⟩ (1 : Fin 2) * 64 ≤ (i 1).val ∧ (i 1).val < win3_5.index ⟨(i 0).val / 10000, ht⟩ (1 : Fin 2) * 64 + 64
      rw [e10]
      omega

end Cert.KernelIdeal.R3

end
-- ==== Proof.R4.lean ====
/-
  The second layer's combine step for the book nodes.

  The grid's five points each take a block of 10000 rows of the aggregated neighbour means and of the nodes' own features,
  the two whole [64, 64] weights and the [1, 64] bias row, and write back, to the same rows of the [50000, 64] result,
  (Σ_c mean(a, c) · wl(c, b) + bias(0, b)) + Σ_c own(a, c) · wr(c, b). An entry depends only on its own row of the
  two row operands, so the block written at point t is rows 10000·t … 10000·t + 9999 of that function of the whole arrays,
  and the blocks tile the result.
-/
import proofs.«122789_j29807073034304_1_alg».proof.Proof.Gen.KernelIdeal.Frame
import proofs.«122789_j29807073034304_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R4

open Cert.KernelIdeal Cert.KernelIdeal.Gen Cert.DenseRows Cert.Layer

variable (V : (c : Dev nD) → (b : Ref sig .tc) → Buf (Elt Ideal) ((c : Thread nD τ).loc b))

theorem hz : (![0, 0] : Fin 2 → Nat) = fun _ => 0 := funext fun a => by fin_cases a <;> rfl

/-- The body's stored value is the combine of its loaded blocks. -/
theorem pay (v0 v3 : Vec Ideal S10000x64 .f32) (v6 v8 : Vec Ideal S64x64 .f32) (v11 : Vec Ideal S1x64 .f32) :
    k4_pay1 (F := Ideal) v0 v3 v6 v8 v11 = combine v0 v3 v6 v11 v8 := by
  unfold k4_pay1
  simp only [shapeCast_self]
  exact block_combine v0 v3 v6 v8 v11 _

/-- The printed index maps over the grid: a row-tiled window moves with the output's row block, a whole-array window
    stays at block (0, 0), and the output's row block at point t is block t. -/
theorem idx_facts : ∀ t : Fin cfg4.N, win4_0.index t (0 : Fin 2) = win4_5.index t (0 : Fin 2)
    ∧ win4_0.index t (1 : Fin 2) = 0
    ∧ win4_1.index t (0 : Fin 2) = win4_5.index t (0 : Fin 2)
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (1 : Fin 2) = 0
    ∧ win4_5.index t (0 : Fin 2) = t.val :=
  (by decide +kernel : ∀ t : Fin grid4.N, _)

/-- What point t writes back is block t of the stage's whole-array function of the arrays as the region finds them. -/
theorem flushed (c : Dev nD) (t : Fin cfg4.N) :
    (dat4 V c).flushed 5 t = ((cfg4.win 5).blk t).view.read (Elt Ideal) (combine (V c main_v61) (V c main_v46) (V c main_arg16) (V c main_v75) (V c main_arg18)) := by
  show (cfg4.win 5).cut (grid4.coords t) ((dat4 V c).after 5 t) = _
  rw [after4_5]
  unfold out4_5
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7, e8, e9, e10, e11⟩ := idx_facts t
  funext j
  show combine (iblk4 V c 0 t) (iblk4 V c 1 t) (iblk4 V c 2 t) (iblk4 V c 3 t) (iblk4 V c 4 t) j = (combine (V c main_v61) (V c main_v46) (V c main_arg16) (V c main_v75) (V c main_arg18)) (((cfg4.win 5).blk t).view.emb j)
  refine combine_at _ _ _ _ _ _ _ _ _ _ j _ (fun cc => ?_) (fun cc => ?_) ?_ ?_ ?_ ?_
  · show V c main_v61 (((cfg4.win 0).blk t).view.emb (ValueIdx.ix2 (j 0) cc)) = V c main_v61 (ValueIdx.ix2 ((((cfg4.win 5).blk t).view.emb j) 0) cc)
    congr 1; funext a; apply Fin.ext
    match a with
    | ⟨0, _⟩ => show win4_0.index t (0 : Fin 2) * 10000 + 1 * (j 0).val = win4_5.index t (0 : Fin 2) * 10000 + 1 * (j 0).val; omega
    | ⟨1, _⟩ => show win4_0.index t (1 : Fin 2) * 64 + 1 * cc.val = cc.val; omega
  · show V c main_v46 (((cfg4.win 1).blk t).view.emb (ValueIdx.ix2 (j 0) cc)) = V c main_v46 (ValueIdx.ix2 ((((cfg4.win 5).blk t).view.emb j) 0) cc)
    congr 1; funext a; apply Fin.ext
    match a with
    | ⟨0, _⟩ => show win4_1.index t (0 : Fin 2) * 10000 + 1 * (j 0).val = win4_5.index t (0 : Fin 2) * 10000 + 1 * (j 0).val; omega
    | ⟨1, _⟩ => show win4_1.index t (1 : Fin 2) * 64 + 1 * cc.val = cc.val; omega
  · funext y
    show V c main_arg16 (((cfg4.win 2).blk t).view.emb y) = V c main_arg16 y
    congr 1; funext a; apply Fin.ext
    match a with
    | ⟨0, _⟩ => show win4_2.index t (0 : Fin 2) * 64 + 1 * (y 0).val = (y 0).val; omega
    | ⟨1, _⟩ => show win4_2.index t (1 : Fin 2) * 64 + 1 * (y 1).val = (y 1).val; omega
  · funext y
    show V c main_arg18 (((cfg4.win 4).blk t).view.emb y) = V c main_arg18 y
    congr 1; funext a; apply Fin.ext
    match a with
    | ⟨0, _⟩ => show win4_4.index t (0 : Fin 2) * 64 + 1 * (y 0).val = (y 0).val; omega
    | ⟨1, _⟩ => show win4_4.index t (1 : Fin 2) * 64 + 1 * (y 1).val = (y 1).val; omega
  · funext y
    show V c main_v75 (((cfg4.win 3).blk t).view.emb y) = V c main_v75 y
    congr 1; funext a; apply Fin.ext
    match a with
    | ⟨0, _⟩ => show win4_3.index t (0 : Fin 2) * 1 + 1 * (y 0).val = (y 0).val; omega
    | ⟨1, _⟩ => show win4_3.index t (1 : Fin 2) * 64 + 1 * (y 1).val = (y 1).val; omega
  · apply Fin.ext
    show (j 1).val = win4_5.index t (1 : Fin 2) * 64 + 1 * (j 1).val
    omega

/-- An index of the output array lies in point t's block iff each coordinate lies in the block's range. -/
theorem mem_blk (t : Fin cfg4.N) (i : S50000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v76).slice (win4_5.rect t)).set ↔ _
  rw [View.set_slice_whole, Rect.mem_set_unit]
  exact Iff.rfl

/-- The row blocks tile the output array, so it ends holding the stage's function of the arrays as the region finds them. -/
theorem final (c : Dev nD) : (dat4 V c).arrAt 5 cfg4.N = (combine (V c main_v61) (V c main_v46) (V c main_arg16) (V c main_v75) (V c main_arg18)) :=
  (dat4 V c).arrAt_eq_of_cover 5 _ (fun t _ => flushed V c t) fun i => by
    have hN : grid4.N = 5 := N_4
    have hi0 : (i 0).val < 50000 := (i 0).isLt
    have hi1 : (i 1).val < 64 := (i 1).isLt
    have ht : (i 0).val / 10000 < cfg4.N := by show _ < grid4.N; omega
    refine ⟨⟨(i 0).val / 10000, ht⟩, flush4_5 _, ?_⟩
    rw [mem_blk]
    obtain ⟨e0, e1, e2, e3, e4, e5, e6, e7, e8, e9, e10, e11⟩ := idx_facts ⟨(i 0).val / 10000, ht⟩
    intro a
    match a with
    | ⟨0, _⟩ =>
      show win4_5.index ⟨(i 0).val / 10000, ht⟩ (0 : Fin 2) * 10000 ≤ (i 0).val ∧ (i 0).val < win4_5.index ⟨(i 0).val / 10000, ht⟩ (0 : Fin 2) * 10000 + 10000
      rw [e11]
      show (i 0).val / 10000 * 10000 ≤ (i 0).val ∧ (i 0).val < (i 0).val / 10000 * 10000 + 10000
      omega
    | ⟨1, _⟩ =>
      show win4_5.index ⟨(i 0).val / 10000, ht⟩ (1 : Fin 2) * 64 ≤ (i 1).val ∧ (i 1).val < win4_5.index ⟨(i 0).val / 10000, ht⟩ (1 : Fin 2) * 64 + 64
      rw [e10]
      omega

end Cert.KernelIdeal.R4

end
-- ==== Proof.R5.lean ====
/-
  The second layer's combine step for the user nodes.

  The grid's ten points each take a block of 10000 rows of the aggregated neighbour means and of the nodes' own features,
  the two whole [64, 64] weights and the [1, 64] bias row, and write back, to the same rows of the [100000, 64] result,
  (Σ_c mean(a, c) · wl(c, b) + bias(0, b)) + Σ_c own(a, c) · wr(c, b). An entry depends only on its own row of the
  two row operands, so the block written at point t is rows 10000·t … 10000·t + 9999 of that function of the whole arrays,
  and the blocks tile the result.
-/
import proofs.«122789_j29807073034304_1_alg».proof.Proof.Gen.KernelIdeal.Frame
import proofs.«122789_j29807073034304_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R5

open Cert.KernelIdeal Cert.KernelIdeal.Gen Cert.DenseRows Cert.Layer

variable (V : (c : Dev nD) → (b : Ref sig .tc) → Buf (Elt Ideal) ((c : Thread nD τ).loc b))

theorem hz : (![0, 0] : Fin 2 → Nat) = fun _ => 0 := funext fun a => by fin_cases a <;> rfl

/-- The body's stored value is the combine of its loaded blocks. -/
theorem pay (v0 v3 : Vec Ideal S10000x64 .f32) (v6 v8 : Vec Ideal S64x64 .f32) (v11 : Vec Ideal S1x64 .f32) :
    k5_pay1 (F := Ideal) v0 v3 v6 v8 v11 = combine v0 v3 v6 v11 v8 := by
  unfold k5_pay1
  simp only [shapeCast_self]
  exact block_combine v0 v3 v6 v8 v11 _

/-- The printed index maps over the grid: a row-tiled window moves with the output's row block, a whole-array window
    stays at block (0, 0), and the output's row block at point t is block t. -/
theorem idx_facts : ∀ t : Fin cfg5.N, win5_0.index t (0 : Fin 2) = win5_5.index t (0 : Fin 2)
    ∧ win5_0.index t (1 : Fin 2) = 0
    ∧ win5_1.index t (0 : Fin 2) = win5_5.index t (0 : Fin 2)
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (1 : Fin 2) = 0
    ∧ win5_5.index t (0 : Fin 2) = t.val :=
  (by decide +kernel : ∀ t : Fin grid5.N, _)

/-- What point t writes back is block t of the stage's whole-array function of the arrays as the region finds them. -/
theorem flushed (c : Dev nD) (t : Fin cfg5.N) :
    (dat5 V c).flushed 5 t = ((cfg5.win 5).blk t).view.read (Elt Ideal) (combine (V c main_v74) (V c main_v48) (V c main_arg19) (V c main_v77) (V c main_arg21)) := by
  show (cfg5.win 5).cut (grid5.coords t) ((dat5 V c).after 5 t) = _
  rw [after5_5]
  unfold out5_5
  rw [View.canon_unit_zero hz]
  simp only [View.ld_unit_zero (S := S10000x64) hz, View.ld_unit_zero (S := S64x64) hz, View.ld_unit_zero (S := S1x64) hz]
  rw [pay]
  obtain ⟨e0, e1, e2, e3, e4, e5, e6, e7, e8, e9, e10, e11⟩ := idx_facts t
  funext j
  show combine (iblk5 V c 0 t) (iblk5 V c 1 t) (iblk5 V c 2 t) (iblk5 V c 3 t) (iblk5 V c 4 t) j = (combine (V c main_v74) (V c main_v48) (V c main_arg19) (V c main_v77) (V c main_arg21)) (((cfg5.win 5).blk t).view.emb j)
  refine combine_at _ _ _ _ _ _ _ _ _ _ j _ (fun cc => ?_) (fun cc => ?_) ?_ ?_ ?_ ?_
  · show V c main_v74 (((cfg5.win 0).blk t).view.emb (ValueIdx.ix2 (j 0) cc)) = V c main_v74 (ValueIdx.ix2 ((((cfg5.win 5).blk t).view.emb j) 0) cc)
    congr 1; funext a; apply Fin.ext
    match a with
    | ⟨0, _⟩ => show win5_0.index t (0 : Fin 2) * 10000 + 1 * (j 0).val = win5_5.index t (0 : Fin 2) * 10000 + 1 * (j 0).val; omega
    | ⟨1, _⟩ => show win5_0.index t (1 : Fin 2) * 64 + 1 * cc.val = cc.val; omega
  · show V c main_v48 (((cfg5.win 1).blk t).view.emb (ValueIdx.ix2 (j 0) cc)) = V c main_v48 (ValueIdx.ix2 ((((cfg5.win 5).blk t).view.emb j) 0) cc)
    congr 1; funext a; apply Fin.ext
    match a with
    | ⟨0, _⟩ => show win5_1.index t (0 : Fin 2) * 10000 + 1 * (j 0).val = win5_5.index t (0 : Fin 2) * 10000 + 1 * (j 0).val; omega
    | ⟨1, _⟩ => show win5_1.index t (1 : Fin 2) * 64 + 1 * cc.val = cc.val; omega
  · funext y
    show V c main_arg19 (((cfg5.win 2).blk t).view.emb y) = V c main_arg19 y
    congr 1; funext a; apply Fin.ext
    match a with
    | ⟨0, _⟩ => show win5_2.index t (0 : Fin 2) * 64 + 1 * (y 0).val = (y 0).val; omega
    | ⟨1, _⟩ => show win5_2.index t (1 : Fin 2) * 64 + 1 * (y 1).val = (y 1).val; omega
  · funext y
    show V c main_arg21 (((cfg5.win 4).blk t).view.emb y) = V c main_arg21 y
    congr 1; funext a; apply Fin.ext
    match a with
    | ⟨0, _⟩ => show win5_4.index t (0 : Fin 2) * 64 + 1 * (y 0).val = (y 0).val; omega
    | ⟨1, _⟩ => show win5_4.index t (1 : Fin 2) * 64 + 1 * (y 1).val = (y 1).val; omega
  · funext y
    show V c main_v77 (((cfg5.win 3).blk t).view.emb y) = V c main_v77 y
    congr 1; funext a; apply Fin.ext
    match a with
    | ⟨0, _⟩ => show win5_3.index t (0 : Fin 2) * 1 + 1 * (y 0).val = (y 0).val; omega
    | ⟨1, _⟩ => show win5_3.index t (1 : Fin 2) * 64 + 1 * (y 1).val = (y 1).val; omega
  · apply Fin.ext
    show (j 1).val = win5_5.index t (1 : Fin 2) * 64 + 1 * (j 1).val
    omega

/-- An index of the output array lies in point t's block iff each coordinate lies in the block's range. -/
theorem mem_blk (t : Fin cfg5.N) (i : S100000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v78).slice (win5_5.rect t)).set ↔ _
  rw [View.set_slice_whole, Rect.mem_set_unit]
  exact Iff.rfl

/-- The row blocks tile the output array, so it ends holding the stage's function of the arrays as the region finds them. -/
theorem final (c : Dev nD) : (dat5 V c).arrAt 5 cfg5.N = (combine (V c main_v74) (V c main_v48) (V c main_arg19) (V c main_v77) (V c main_arg21)) :=
  (dat5 V c).arrAt_eq_of_cover 5 _ (fun t _ => flushed V c t) fun i => by
    have hN : grid5.N = 10 := N_5
    have hi0 : (i 0).val < 100000 := (i 0).isLt
    have hi1 : (i 1).val < 64 := (i 1).isLt
    have ht : (i 0).val / 10000 < cfg5.N := by show _ < grid5.N; omega
    refine ⟨⟨(i 0).val / 10000, ht⟩, flush5_5 _, ?_⟩
    rw [mem_blk]
    obtain ⟨e0, e1, e2, e3, e4, e5, e6, e7, e8, e9, e10, e11⟩ := idx_facts ⟨(i 0).val / 10000, ht⟩
    intro a
    match a with
    | ⟨0, _⟩ =>
      show win5_5.index ⟨(i 0).val / 10000, ht⟩ (0 : Fin 2) * 10000 ≤ (i 0).val ∧ (i 0).val < win5_5.index ⟨(i 0).val / 10000, ht⟩ (0 : Fin 2) * 10000 + 10000
      rw [e11]
      show (i 0).val / 10000 * 10000 ≤ (i 0).val ∧ (i 0).val < (i 0).val / 10000 * 10000 + 10000
      omega
    | ⟨1, _⟩ =>
      show win5_5.index ⟨(i 0).val / 10000, ht⟩ (1 : Fin 2) * 64 ≤ (i 1).val ∧ (i 1).val < win5_5.index ⟨(i 0).val / 10000, ht⟩ (1 : Fin 2) * 64 + 64
      rw [e10]
      omega

end Cert.KernelIdeal.R5

end
-- ==== Proof.R6.lean ====
/-
  The edge decoder: a dense layer clamped below at zero, then a second dense layer to one column.

  The grid's fifty points each take a block of 10000 rows of the [500000, 128] concatenated endpoint features, the whole
  [128, 128] and [128, 1] weights and the two bias rows, and write back, to the same rows of the [500000, 1] result,
  Σ_h max(Σ_c z(a, c) · w1(c, h) + b1(0, h), 0) · w2(h, 0) + b2(0, 0). An entry depends only on its own row of z, so the
  block written at point t is rows 10000·t … 10000·t + 9999 of that function of the whole arrays, and the blocks tile the result.
-/
import proofs.«122789_j29807073034304_1_alg».proof.Proof.Gen.KernelIdeal.Frame
import proofs.«122789_j29807073034304_1_alg».proof.Proof.Layer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R6

open Cert.KernelIdeal Cert.KernelIdeal.Gen Cert.DenseRows Cert.Layer

variable (V : (c : Dev nD) → (b : Ref sig .tc) → Buf (Elt Ideal) ((c : Thread nD τ).loc b))

theorem hz : (![0, 0] : Fin 2 → Nat) = fun _ => 0 := funext fun a => by fin_cases a <;> rfl

/-- The body's stored value is the two-layer decoder of its loaded blocks. -/
theorem pay (v0 : Vec Ideal S10000x128 .f32) (v3 : Vec Ideal S128x128 .f32) (v6 : Vec Ideal S1x128 .f32) (v13 : Vec Ideal S128x1 .f32) (v16 : Vec Ideal S1x1 .f32) :
    k6_pay1 (F := Ideal) v0 v3 v6 v13 v16 = decode v0 v3 v6 v13 v16 := by
  unfold k6_pay1
  simp only [shapeCast_self]
  exact block_decode (φ₁ := .bf16) (φ₂ := .bf16) (φ₃ := .bf16) v0 v3 v6 v13 v16 _ _ _

/-- The printed index maps over the grid: a row-tiled window moves with the output's row block, a whole-array window
    stays at block (0, 0), and the output's row block at point t is block t. -/
theorem idx_facts : ∀ t : Fin cfg6.N, win6_0.index t (0 : Fin 2) = win6_5.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (1 : Fin 2) = 0
    ∧ win6_5.index t (0 : Fin 2) = t.val :=
  (by decide +kernel : ∀ t : Fin grid6.N, _)

/-- What point t writes back is block t of the stage's whole-array function of the arrays as the region finds them. -/
theorem flushed (c : Dev nD) (t : Fin cfg6.N) :
    (dat6 V c).flushed 5 t = ((cfg6.win 5).blk t).view.read (Elt Ideal) (decode (V c main_v93) (V c main_arg22) (V c main_v94) (V c main_arg24) (V c main_v95)) := by
  show (cfg6.win 5).cut (grid6.coords t) ((dat6 V c).after 5 t) = _
  rw [after6_5]
  unfold out6_5
  rw [View.canon_unit_zero hz]
  simp only [View.ld_unit_zero (S := S10000x128) hz, View.ld_unit_zero (S := S128x128) hz, View.ld_unit_zero (S := S1x128) hz, View.ld_unit_zero (S := S128x1) hz, View.ld_unit_zero (S := S1x1) hz]
  rw [pay]
  obtain ⟨e0, e1, e2, e3, e4, e5, e6, e7, e8, e9, e10, e11⟩ := idx_facts t
  funext j
  show decode (iblk6 V c 0 t) (iblk6 V c 1 t) (iblk6 V c 2 t) (iblk6 V c 3 t) (iblk6 V c 4 t) j = (decode (V c main_v93) (V c main_arg22) (V c main_v94) (V c main_arg24) (V c main_v95)) (((cfg6.win 5).blk t).view.emb j)
  refine decode_at _ _ _ _ _ _ _ _ _ _ j _ (fun cc => ?_) ?_ ?_ ?_ ?_ ?_
  · show V c main_v93 (((cfg6.win 0).blk t).view.emb (ValueIdx.ix2 (j 0) cc)) = V c main_v93 (ValueIdx.ix2 ((((cfg6.win 5).blk t).view.emb j) 0) cc)
    congr 1; funext a; apply Fin.ext
    match a with
    | ⟨0, _⟩ => show win6_0.index t (0 : Fin 2) * 10000 + 1 * (j 0).val = win6_5.index t (0 : Fin 2) * 10000 + 1 * (j 0).val; omega
    | ⟨1, _⟩ => show win6_0.index t (1 : Fin 2) * 128 + 1 * cc.val = cc.val; omega
  · funext y
    show V c main_arg22 (((cfg6.win 1).blk t).view.emb y) = V c main_arg22 y
    congr 1; funext a; apply Fin.ext
    match a with
    | ⟨0, _⟩ => show win6_1.index t (0 : Fin 2) * 128 + 1 * (y 0).val = (y 0).val; omega
    | ⟨1, _⟩ => show win6_1.index t (1 : Fin 2) * 128 + 1 * (y 1).val = (y 1).val; omega
  · funext y
    show V c main_v94 (((cfg6.win 2).blk t).view.emb y) = V c main_v94 y
    congr 1; funext a; apply Fin.ext
    match a with
    | ⟨0, _⟩ => show win6_2.index t (0 : Fin 2) * 1 + 1 * (y 0).val = (y 0).val; omega
    | ⟨1, _⟩ => show win6_2.index t (1 : Fin 2) * 128 + 1 * (y 1).val = (y 1).val; omega
  · funext y
    show V c main_arg24 (((cfg6.win 3).blk t).view.emb y) = V c main_arg24 y
    congr 1; funext a; apply Fin.ext
    match a with
    | ⟨0, _⟩ => show win6_3.index t (0 : Fin 2) * 128 + 1 * (y 0).val = (y 0).val; omega
    | ⟨1, _⟩ => show win6_3.index t (1 : Fin 2) * 1 + 1 * (y 1).val = (y 1).val; omega
  · funext y
    show V c main_v95 (((cfg6.win 4).blk t).view.emb y) = V c main_v95 y
    congr 1; funext a; apply Fin.ext
    match a with
    | ⟨0, _⟩ => show win6_4.index t (0 : Fin 2) * 1 + 1 * (y 0).val = (y 0).val; omega
    | ⟨1, _⟩ => show win6_4.index t (1 : Fin 2) * 1 + 1 * (y 1).val = (y 1).val; omega
  · apply Fin.ext
    show (j 1).val = win6_5.index t (1 : Fin 2) * 1 + 1 * (j 1).val
    omega

/-- An index of the output array lies in point t's block iff each coordinate lies in the block's range. -/
theorem mem_blk (t : Fin cfg6.N) (i : S500000x1.Idx) :
    i ∈ ((cfg6.win 5).blk t).view.set ↔ ∀ a : Fin 2, win6_5.index t a * S10000x1.size a ≤ (i a).val ∧ (i a).val < win6_5.index t a * S10000x1.size a + S10000x1.size a := by
  show i ∈ ((View.whole main_v96).slice (win6_5.rect t)).set ↔ _
  rw [View.set_slice_whole, Rect.mem_set_unit]
  exact Iff.rfl

/-- The row blocks tile the output array, so it ends holding the stage's function of the arrays as the region finds them. -/
theorem final (c : Dev nD) : (dat6 V c).arrAt 5 cfg6.N = (decode (V c main_v93) (V c main_arg22) (V c main_v94) (V c main_arg24) (V c main_v95)) :=
  (dat6 V c).arrAt_eq_of_cover 5 _ (fun t _ => flushed V c t) fun i => by
    have hN : grid6.N = 50 := N_6
    have hi0 : (i 0).val < 500000 := (i 0).isLt
    have hi1 : (i 1).val < 1 := (i 1).isLt
    have ht : (i 0).val / 10000 < cfg6.N := by show _ < grid6.N; omega
    refine ⟨⟨(i 0).val / 10000, ht⟩, flush6_5 _, ?_⟩
    rw [mem_blk]
    obtain ⟨e0, e1, e2, e3, e4, e5, e6, e7, e8, e9, e10, e11⟩ := idx_facts ⟨(i 0).val / 10000, ht⟩
    intro a
    match a with
    | ⟨0, _⟩ =>
      show win6_5.index ⟨(i 0).val / 10000, ht⟩ (0 : Fin 2) * 10000 ≤ (i 0).val ∧ (i 0).val < win6_5.index ⟨(i 0).val / 10000, ht⟩ (0 : Fin 2) * 10000 + 10000
      rw [e11]
      show (i 0).val / 10000 * 10000 ≤ (i 0).val ∧ (i 0).val < (i 0).val / 10000 * 10000 + 10000
      omega
    | ⟨1, _⟩ =>
      show win6_5.index ⟨(i 0).val / 10000, ht⟩ (1 : Fin 2) * 1 ≤ (i 1).val ∧ (i 1).val < win6_5.index ⟨(i 0).val / 10000, ht⟩ (1 : Fin 2) * 1 + 1
      rw [e10]
      omega

end Cert.KernelIdeal.R6

end
-- ==== Proof.LibMeanScale.lean ====
/-
  A mean taken as "sum times the reciprocal of the count" is the mean taken as "sum divided by the count".

  On the extended reals the quotient x / y is x · y⁻¹ whenever y is not zero. A count clamped below at one is at least
  one, hence not zero, so 1 / max(cnt, 1) is max(cnt, 1)⁻¹ and s · (1 / max(cnt, 1)) = s / max(cnt, 1) for every
  extended real s — no finiteness is needed. `scale_by_inverse` is this law under two broadcasts: a per-row count
  clamped at one, its reciprocal repeated along the rows' entries and multiplied in, against the clamped count itself
  repeated and divided by.
-/
import Idealize.ShloMosaic.PureOps.Ideal.Laws
import Idealize.ShloMosaic.Lib.IdealHost
import Idealize.ShloMosaic.Lib.Pipeline.Value

noncomputable section

namespace Cert.LibMeanScale

open Idealize.ShloMosaic

/-- Multiplying by the quotient of one by a number that is at least one is dividing by that number. -/
theorem mul_one_div (s y : EReal) (hy : 1 ≤ y) : s * Ideal.div 1 y = Ideal.div s y := by
  have h0 : y ≠ 0 := ne_of_gt (lt_of_lt_of_le zero_lt_one hy)
  unfold Ideal.div
  rw [if_neg h0, if_neg h0, one_mul]

/-- An array times the twice-broadcast reciprocal of a count clamped below at one is the array divided by the
    twice-broadcast clamped count. -/
theorem scale_by_inverse {s₁ s₂ s₃ : Shape} {d1 : Fin s₁.rank → Fin s₂.rank} {d2 : Fin s₂.rank → Fin s₃.rank}
    (g1 : s₁.BroadcastsInDim s₂ d1) (g2 : s₂.BroadcastsInDim s₃ d2)
    (g0 g0' : (⟨0, ![]⟩ : Shape).BroadcastsInDim s₁ ![])
    (S : FVec Ideal s₃ .f32) (cnt : FVec Ideal s₁ .f32) :
    mulf S (broadcastInDim s₃ d2 g2 (broadcastInDim s₂ d1 g1
        (Host.divf (broadcastInDim s₁ ![] g0' (constant (F := Ideal) ⟨0, ![]⟩ .f32 0x3F800000#32))
          (maximumf cnt (broadcastInDim s₁ ![] g0 (constant (F := Ideal) ⟨0, ![]⟩ .f32 0x3F800000#32))))))
      = Host.divf S (broadcastInDim s₃ d2 g2 (broadcastInDim s₂ d1 g1
          (maximumf cnt (broadcastInDim s₁ ![] g0 (constant (F := Ideal) ⟨0, ![]⟩ .f32 0x3F800000#32))))) := by
  funext i
  simp only [mulf, Host.divf, maximumf, constant, broadcastInDim, Ideal.mulf_def, Ideal.hostDivf_def, Ideal.maximumf_def,
    Ideal.ofBits_def, Ideal.ofBits_one_f32]
  exact mul_one_div _ _ (le_max_right _ _)

end Cert.LibMeanScale

end
-- ==== Proof.Stages.lean ====
/-
  The idealized kernel's buffers at the boundaries of @main, each as the reference's stage of the same name in the
  network: the user and book projections, the two layers' neighbour means and combined features, the gathered and
  concatenated endpoint features, the decoder's column and its flattening.

  A dense stage is a pallas_call whose result array is the stage's function of its input arrays (the row blocks tile it),
  and that function is the host's product-plus-bias spelling of the reference. A neighbour mean is computed on the host
  by both programs with the same gather and the same accumulating scatter; the kernel multiplies the sums by the
  reciprocal of the clamped count where the reference divides by the clamped count, equal on the extended reals because
  the clamped count is at least one.
-/
import proofs.«122789_j29807073034304_1_alg».proof.Proof.Walk
import proofs.«122789_j29807073034304_1_alg».proof.Proof.R0
import proofs.«122789_j29807073034304_1_alg».proof.Proof.R1
import proofs.«122789_j29807073034304_1_alg».proof.Proof.R2
import proofs.«122789_j29807073034304_1_alg».proof.Proof.R3
import proofs.«122789_j29807073034304_1_alg».proof.Proof.R4
import proofs.«122789_j29807073034304_1_alg».proof.Proof.R5
import proofs.«122789_j29807073034304_1_alg».proof.Proof.R6
import proofs.«122789_j29807073034304_1_alg».proof.Proof.LibMeanScale
import proofs.«122789_j29807073034304_1_alg».proof.Proof.Gen.ReferenceIdeal.Read

set_option maxRecDepth 16384
set_option maxHeartbeats 4000000

noncomputable section

namespace Cert.KernelIdeal.Stages

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Walk Cert.DenseRows Cert.Layer Cert.ReferenceIdeal.Read

variable (m : (ℓ : Loc nD τ sig) → Buf (Elt Ideal) ℓ) (ρ : Dev nD → PrngReg) (c : Dev nD)

/-- The user projection. -/
theorem u_eq : W2 m ρ c (Proc.devRef .tc main_v1) = val_main_v3 (F := Ideal) (m ((c : Thread nD τ).loc main_arg0)) (m ((c : Thread nD τ).loc main_arg6)) (m ((c : Thread nD τ).loc main_arg7)) := by
  refine (W2_arr m ρ c 3).trans ?_
  rw [R0.final (V1 m ρ) c]
  have h0 : V1 m ρ c main_arg0 = (m ((c : Thread nD τ).loc main_arg0)) := by walk
  have h1 : V1 m ρ c main_arg6 = (m ((c : Thread nD τ).loc main_arg6)) := by walk
  have h2 : V1 m ρ c main_v0 = shapeCast S1x64 (m ((c : Thread nD τ).loc main_arg7)) shapeCasts_S64_S1x64 := by first | (walk; done) | (walk; rfl)
  rw [h0, h1, h2]
  exact (host_dense _ _ _ _ _ _).symm

/-- The book projection. -/
theorem b_eq : W4 m ρ c (Proc.devRef .tc main_v3) = val_main_v7 (F := Ideal) (m ((c : Thread nD τ).loc main_arg1)) (m ((c : Thread nD τ).loc main_arg8)) (m ((c : Thread nD τ).loc main_arg9)) := by
  refine (W4_arr m ρ c 3).trans ?_
  rw [R1.final (V3 m ρ) c]
  have h0 : V3 m ρ c main_arg1 = (m ((c : Thread nD τ).loc main_arg1)) := by walk
  have h1 : V3 m ρ c main_arg8 = (m ((c : Thread nD τ).loc main_arg8)) := by walk
  have h2 : V3 m ρ c main_v2 = shapeCast S1x64 (m ((c : Thread nD τ).loc main_arg9)) shapeCasts_S64_S1x64 := by first | (walk; done) | (walk; rfl)
  rw [h0, h1, h2]
  exact (host_dense _ _ _ _ _ _).symm

/-- The first layer's mean of user features over each book's edges. -/
theorem meanB1_eq : W5 m ρ c (Proc.devRef .tc main_v31) = val_main_v26 (F := Ideal) (m ((c : Thread nD τ).loc main_arg0)) (m ((c : Thread nD τ).loc main_arg2)) (m ((c : Thread nD τ).loc main_arg3)) (m ((c : Thread nD τ).loc main_arg6)) (m ((c : Thread nD τ).loc main_arg7)) := by
  walk
  rw [u_eq m ρ c]
  refine (Cert.LibMeanScale.scale_by_inverse _ _ _ _ _ _).trans ?_
  rfl

/-- The first layer's mean of book features over each user's edges. -/
theorem meanU1_eq : W5 m ρ c (Proc.devRef .tc main_v44) = val_main_v51 (F := Ideal) (m ((c : Thread nD τ).loc main_arg1)) (m ((c : Thread nD τ).loc main_arg2)) (m ((c : Thread nD τ).loc main_arg3)) (m ((c : Thread nD τ).loc main_arg8)) (m ((c : Thread nD τ).loc main_arg9)) := by
  walk
  rw [b_eq m ρ c]
  refine (Cert.LibMeanScale.scale_by_inverse _ _ _ _ _ _).trans ?_
  rfl

/-- The books' features after the first layer. -/
theorem b1_eq : W6 m ρ c (Proc.devRef .tc main_v46) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ?_
  rw [R2.final (V5 m ρ) c]
  have h0 : V5 m ρ c main_v31 = val_main_v26 (F := Ideal) (m ((c : Thread nD τ).loc main_arg0)) (m ((c : Thread nD τ).loc main_arg2)) (m ((c : Thread nD τ).loc main_arg3)) (m ((c : Thread nD τ).loc main_arg6)) (m ((c : Thread nD τ).loc main_arg7)) := by
    exact meanB1_eq m ρ c
  have h1 : V5 m ρ c main_v3 = val_main_v7 (F := Ideal) (m ((c : Thread nD τ).loc main_arg1)) (m ((c : Thread nD τ).loc main_arg8)) (m ((c : Thread nD τ).loc main_arg9)) := by
    walk
    exact b_eq m ρ c
  have h2 : V5 m ρ c main_arg10 = (m ((c : Thread nD τ).loc main_arg10)) := by walk
  have h3 : V5 m ρ c main_v45 = shapeCast S1x64 (m ((c : Thread nD τ).loc main_arg11)) shapeCasts_S64_S1x64 := by first | (walk; done) | (walk; rfl)
  have h4 : V5 m ρ c main_arg12 = (m ((c : Thread nD τ).loc main_arg12)) := by walk
  exact (congrArg clamp0 ((combine_congr h0 h1 h2 h3 h4).trans (host_combine _ _ _ _ _ _ _ _).symm)).trans (host_clamp0 _ _).symm

/-- The users' features after the first layer. -/
theorem u1_eq : W8 m ρ c (Proc.devRef .tc main_v48) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) := by
  refine (W8_arr m ρ c 5).trans ?_
  rw [R3.final (V7 m ρ) c]
  have h0 : V7 m ρ c main_v44 = val_main_v51 (F := Ideal) (m ((c : Thread nD τ).loc main_arg1)) (m ((c : Thread nD τ).loc main_arg2)) (m ((c : Thread nD τ).loc main_arg3)) (m ((c : Thread nD τ).loc main_arg8)) (m ((c : Thread nD τ).loc main_arg9)) := by
    refine (StableHlo.after_of_forall_not_mem (b := Proc.devRef .tc main_v44) hostOps3 _ (List.forall_iff_forall_mem.mp (by
      simp only [hostOps3, List.Forall, StableHlo.reshape_writes, Finset.mem_singleton]
      exact StableHlo.devRef_ne_of_ne (by decide)))).trans ?_
    refine (keep2 m ρ c (by decide)).trans ?_
    exact meanU1_eq m ρ c
  have h1 : V7 m ρ c main_v1 = val_main_v3 (F := Ideal) (m ((c : Thread nD τ).loc main_arg0)) (m ((c : Thread nD τ).loc main_arg6)) (m ((c : Thread nD τ).loc main_arg7)) := by
    walk
    exact u_eq m ρ c
  have h2 : V7 m ρ c main_arg13 = (m ((c : Thread nD τ).loc main_arg13)) := by walk
  have h3 : V7 m ρ c main_v47 = shapeCast S1x64 (m ((c : Thread nD τ).loc main_arg14)) shapeCasts_S64_S1x64 := by first | (walk; done) | (walk; rfl)
  have h4 : V7 m ρ c main_arg15 = (m ((c : Thread nD τ).loc main_arg15)) := by walk
  exact (congrArg clamp0 ((combine_congr h0 h1 h2 h3 h4).trans (host_combine _ _ _ _ _ _ _ _).symm)).trans (host_clamp0 _ _).symm

/-- The second layer's mean of user features over each book's edges. -/
theorem meanB2_eq : W9 m ρ c (Proc.devRef .tc main_v61) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) := by
  walk
  rw [u1_eq m ρ c]
  refine (Cert.LibMeanScale.scale_by_inverse _ _ _ _ _ _).trans ?_
  rfl

/-- The second layer's mean of book features over each user's edges. -/
theorem meanU2_eq : W9 m ρ c (Proc.devRef .tc main_v74) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  walk
  rw [b1_eq m ρ c]
  refine (Cert.LibMeanScale.scale_by_inverse _ _ _ _ _ _).trans ?_
  rfl

/-- The books' features after the second layer. -/
theorem b2_eq : W10 m ρ c (Proc.devRef .tc main_v76) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W10_arr m ρ c 5).trans ?_
  rw [R4.final (V9 m ρ) c]
  have h0 : V9 m ρ c main_v61 = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) := by
    exact meanB2_eq m ρ c
  have h1 : V9 m ρ c main_v46 = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
    walk
    exact b1_eq m ρ c
  have h2 : V9 m ρ c main_arg16 = (m ((c : Thread nD τ).loc main_arg16)) := by walk
  have h3 : V9 m ρ c main_v75 = shapeCast S1x64 (m ((c : Thread nD τ).loc main_arg17)) shapeCasts_S64_S1x64 := by first | (walk; done) | (walk; rfl)
  have h4 : V9 m ρ c main_arg18 = (m ((c : Thread nD τ).loc main_arg18)) := by walk
  exact (combine_congr h0 h1 h2 h3 h4).trans (host_combine _ _ _ _ _ _ _ _).symm

/-- The users' features after the second layer. -/
theorem u2_eq : W12 m ρ c (Proc.devRef .tc main_v78) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) := by
  refine (W12_arr m ρ c 5).trans ?_
  rw [R5.final (V11 m ρ) c]
  have h0 : V11 m ρ c main_v74 = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
    refine (StableHlo.after_of_forall_not_mem (b := Proc.devRef .tc main_v74) hostOps5 _ (List.forall_iff_forall_mem.mp (by
      simp only [hostOps5, List.Forall, StableHlo.reshape_writes, Finset.mem_singleton]
      exact StableHlo.devRef_ne_of_ne (by decide)))).trans ?_
    refine (keep4 m ρ c (by decide)).trans ?_
    exact meanU2_eq m ρ c
  have h1 : V11 m ρ c main_v48 = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)) := by
    walk
    exact u1_eq m ρ c
  have h2 : V11 m ρ c main_arg19 = (m ((c : Thread nD τ).loc main_arg19)) := by walk
  have h3 : V11 m ρ c main_v77 = shapeCast S1x64 (m ((c : Thread nD τ).loc main_arg20)) shapeCasts_S64_S1x64 := by first | (walk; done) | (walk; rfl)
  have h4 : V11 m ρ c main_arg21 = (m ((c : Thread nD τ).loc main_arg21)) := by walk
  exact (combine_congr h0 h1 h2 h3 h4).trans (host_combine _ _ _ _ _ _ _ _).symm

/-- The labelled edges' endpoint features, gathered and laid side by side. -/
theorem z_eq : W13 m ρ c (Proc.devRef .tc main_v93) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  walk
  unfold val_main_v124
  refine concat_congr _ _ _ _ _ _ _ ?_ ?_
  · walk
    rw [u2_eq m ρ c]
    rfl
  · walk
    rw [b2_eq m ρ c]
    rfl

/-- The decoder's column. -/
theorem dec_eq : W14 m ρ c (Proc.devRef .tc main_v96) = val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  refine (W14_arr m ρ c 5).trans ?_
  rw [R6.final (V13 m ρ) c]
  have h0 : V13 m ρ c main_v93 = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := z_eq m ρ c
  have h1 : V13 m ρ c main_arg22 = (m ((c : Thread nD τ).loc main_arg22)) := by walk
  have h2 : V13 m ρ c main_v94 = shapeCast S1x128 (m ((c : Thread nD τ).loc main_arg23)) shapeCasts_S128_S1x128 := by first | (walk; done) | (walk; rfl)
  have h3 : V13 m ρ c main_arg24 = (m ((c : Thread nD τ).loc main_arg24)) := by walk
  have h4 : V13 m ρ c main_v95 = shapeCast S1x1 (m ((c : Thread nD τ).loc main_arg25)) shapeCasts_S1_S1x1 := by first | (walk; done) | (walk; rfl)
  exact (decode_congr h0 h1 h2 h3 h4).trans (host_decode _ _ _ _ _ _ _ _ _ _ _ _).symm

/-- The result: the decoder's column flattened. -/
theorem out_eq : W15 m ρ c (Proc.devRef .tc main_v97) = val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  walk
  rw [dec_eq m ρ c]
  rfl

end Cert.KernelIdeal.Stages

end
-- ==== Proof.lean ====
/-
  A two-layer mean-aggregating graph network over users and books with an edge decoder, as seven pallas_calls among
  host gathers and scatters, against its plain jnp reference: the two programs compute the same array on the extended reals.

  Every dense stage — the two input projections x · w + b, the four combine steps (mean · wl + bl) + own · wr (the
  first layer's clamped below at zero), the decoder max(z · w1 + b1, 0) · w2 + b2 — is a pallas_call over row blocks
  whose result array is the stage's function of its whole input arrays, and that function is the reference's own
  product-plus-bias spelling. The irregular stages — gathering the source rows of the two million edges and adding
  them into their destinations, counting each node's edges, gathering the labelled edges' endpoints — are the same host
  operations in both programs. The one difference of arithmetic: the kernel multiplies each row of sums by 1 / max(cnt, 1),
  computed once per node type, where the reference divides by max(cnt, 1); a count clamped at one is not zero, so the
  two agree on every extended real and the precondition is never opened. The frames of the two kernel programs and the
  reference's run are the generated ones; the ideal pass rewrote nothing, so there is nothing to preserve.
-/
import proofs.«122789_j29807073034304_1_alg».proof.Defs
import proofs.«122789_j29807073034304_1_alg».proof.Proof.Gen.Kernel
import proofs.«122789_j29807073034304_1_alg».proof.Proof.Gen.Kernel.Skeleton
import proofs.«122789_j29807073034304_1_alg».proof.Proof.Gen.Kernel.Launch
import proofs.«122789_j29807073034304_1_alg».proof.Proof.Gen.Kernel.Points
import proofs.«122789_j29807073034304_1_alg».proof.Proof.Gen.Kernel.Frame
import proofs.«122789_j29807073034304_1_alg».proof.Proof.Gen.KernelIdeal
import proofs.«122789_j29807073034304_1_alg».proof.Proof.Gen.KernelIdeal.Skeleton
import proofs.«122789_j29807073034304_1_alg».proof.Proof.Gen.KernelIdeal.Launch
import proofs.«122789_j29807073034304_1_alg».proof.Proof.Gen.KernelIdeal.Points
import proofs.«122789_j29807073034304_1_alg».proof.Proof.Gen.KernelIdeal.Frame
import proofs.«122789_j29807073034304_1_alg».proof.Proof.Gen.ReferenceIdeal
import proofs.«122789_j29807073034304_1_alg».proof.Proof.Gen.Pre_finite_inputs
import proofs.«122789_j29807073034304_1_alg».proof.Proof.Gen.ReferenceIdeal.Run
import proofs.«122789_j29807073034304_1_alg».proof.Proof.Gen.ReferenceIdeal.Read
import proofs.«122789_j29807073034304_1_alg».proof.Proof.KRun
import proofs.«122789_j29807073034304_1_alg».proof.Proof.Stages
import Idealize.ShloMosaic.Adequacy
import Idealize.ShloMosaic.Init

set_option maxRecDepth 16384

noncomputable section

namespace Cert.Proof

open Idealize.ShloMosaic Idealize.SL.Sem

/-- The reference terminates with its arguments unchanged: its generated run with the result dropped. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end with the result at the reference's last stage of the shared arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v134 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)), ?_, ?_⟩
  · exact (θ_run Cert.KernelIdeal.defs _ _).mono
      (fun r h c => ⟨(h c).1.trans (Cert.KernelIdeal.Stages.out_eq m ρ c), (h c).2⟩)
      (Cert.KernelIdeal.Walk.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v134_eq m' c]
    obtain ⟨e0, e1, e2, e3, e4, e5, e6, e7, e8, e9, e10, e11, e12, e13, e14, e15, e16, e17, e18, e19, e20, e21, e22, e23, e24, e25⟩ := hagree c
    rw [e0, e1, e2, e3, e4, e5, e6, e7, e8, e9, e10, e11, e12, e13, e14, e15, e16, e17, e18, e19, e20, e21, e22, e23, e24, e25]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
